-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S4096x4096 .f32) (main_arg3 : FVec F S128x128 .f32) (main_arg4 : FVec F S128x1 .f32) (main_arg5 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S1024x4096 : Shape := ⟨2, ![1024, 4096]⟩
abbrev S1024x128 : Shape := ⟨2, ![1024, 128]⟩
abbrev S4096 : Shape := ⟨1, ![4096]⟩
abbrev S4096x1 : Shape := ⟨2, ![4096, 1]⟩
abbrev S1x4096x1 : Shape := ⟨3, ![1, 4096, 1]⟩
abbrev S1x1x1 : Shape := ⟨3, ![1, 1, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x1, .f32⟩
  | .hbm, ⟨5, _⟩ => ⟨S1, .f32⟩
  | .hbm, ⟨6, _⟩ => ⟨S1x128, .f32⟩
  | .hbm, ⟨7, _⟩ => ⟨S1x1, .f32⟩
  | .hbm, ⟨8, _⟩ => ⟨S4096x128, .f32⟩
  | .hbm, ⟨9, _⟩ => ⟨S4096x128, .f32⟩
  | .local _ .vmem, ⟨0, _⟩ => ⟨S4096x128, .f32⟩
  | .local _ .vmem, ⟨1, _⟩ => ⟨S1x128, .f32⟩
  | .local _ .vmem, ⟨2, _⟩ => ⟨S128x128, .f32⟩
  | .local _ .vmem, ⟨3, _⟩ => ⟨S1x1, .f32⟩
  | .local _ .vmem, ⟨4, _⟩ => ⟨S1024x4096, .f32⟩
  | .local _ .vmem, ⟨5, _⟩ => ⟨S1024x4096, .f32⟩
  | .local _ .vmem, ⟨6, _⟩ => ⟨S1024x128, .f32⟩
  | .local _ .vmem, ⟨7, _⟩ => ⟨S1024x128, .f32⟩
  | .local _ .vmem, ⟨8, _⟩ => ⟨S4096x128, .bf16⟩
  | .local _ .vmem, ⟨9, _⟩ => ⟨S4096x128, .f32⟩
  | .local _ .vmem, ⟨10, _⟩ => ⟨S4096x128, .f32⟩
  | .local _ .vmem, ⟨11, _⟩ => ⟨S1024x4096, .f32⟩
  | .local _ .vmem, ⟨12, _⟩ => ⟨S1024x4096, .f32⟩
  | .local _ .vmem, ⟨13, _⟩ => ⟨S1024x128, .f32⟩
  | .local _ .vmem, ⟨14, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v8 : Index := Scalar.indexCast v3
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128x1_S1x128 : S128x1.ShapeCasts S1x128
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S4096x1_S4096x128 : S4096x1.Broadcasts S4096x128
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x4096_S1024x4096_0_0 : ∀ a, (![0, 0] : Fin 2 → Nat) a + S1024x4096.size a ≤ S1024x4096.size a
  h_S1024x4096 : 0 < S1024x4096.numel
  h_S1024x128 : 0 < S1024x128.numel
  inb_S1024x128_S1024x128_0_0 : ∀ a, (![0, 0] : Fin 2 → Nat) a + S1024x128.size a ≤ S1024x128.size a
  dot_S4096x128_S128x128_S4096x128_1_0_0_1_n_n_wf : DotDims.WF S4096x128 S128x128 S4096x128 [1] [0] [0] [1] [] []
  dot_S1024x4096_S4096x128_S1024x128_1_0_0_1_n_n_wf : DotDims.WF S1024x4096 S4096x128 S1024x128 [1] [0] [0] [1] [] []
  hrank0 : 0 < grid0.rank
  k0_off1_inb : ∀ i : grid0.Coords, ∀ a, (k0_off1 i) a + S1024x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .f32 = 32 ∨ (Rect.block (s := S4096x4096) S1024x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .f32 = 32 ∨ (Rect.block (s := S4096x4096) S1024x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128x1 : Shape := ⟨2, ![128, 1]⟩
abbrev S1 : Shape := ⟨1, ![1]⟩
abbrev S4096x1 : Shape := ⟨2, ![4096, 1]⟩
abbrev S_ : Shape := ⟨0, ![]⟩
abbrev S1x1 : Shape := ⟨2, ![1, 1]⟩
abbrev S4096 : Shape := ⟨1, ![4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x1, .f32⟩
  | .hbm, ⟨5, _⟩ => ⟨S1, .f32⟩
  | .hbm, ⟨6, _⟩ => ⟨S4096x1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S1, .f32⟩
  | .hbm, ⟨18, _⟩ => ⟨S1x1, .f32⟩
  | .hbm, ⟨19, _⟩ => ⟨S4096x1, .f32⟩
  | .hbm, ⟨20, _⟩ => ⟨S4096x1, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x1, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x128, .f32⟩
  | .hbm, ⟨36, _⟩ => ⟨S4096x128, .f32⟩
  | .hbm, ⟨37, _⟩ => ⟨S1x1, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_c : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_0 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  reducesTo_S4096x1_S1_d0 : S4096x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  pads_S4096_S4096_000 : S4096.Pads (![0] : Fin 1 → Nat) ![0] ![0] S4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S1x1_S4096x128_0_1 : S1x1.BroadcastsInDim S4096x128 (![0, 1] : Fin 2 → Fin S4096x128.rank)
  dot_S4096x128_S128x1_S4096x1_1_0_0_1_n_n_wf : DotDims.WF S4096x128 S128x1 S4096x1 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.BRuns.lean ====
/-
  The support kernel (four row chunks of adj, the first chunk also computing the softmax-scaled and the alpha-scaled
  products into two buffers kept between chunks) and the output kernel (four row chunks of inc against the whole
  support): what their runs share.  The branch taken at the first chunk only, decided over the four chunks; each
  operand's staging memref at a chunk; the two kept buffers as memrefs; every window's block of its array at a chunk;
  and an input window's staging buffer holding that block at every chunk, fetched there or not.
-/
import proofs.«170018_g850403524773_cont_9to1c4b_300_6_alg».proof.Proof.Gen.Kernel.Launch
import proofs.«170018_g850403524773_cont_9to1c4b_300_6_alg».proof.Proof.Gen.Kernel.Skeleton
import proofs.«170018_g850403524773_cont_9to1c4b_300_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The support kernel's branch: the first chunk only -/

/-- "This is the first chunk", as the kernel computes it from the chunk's coordinate. -/
abbrev cond0_0 (i : grid0.Coords) : Prop := (Scalar.cmpi .ne (Scalar.extui (Scalar.cmpi .eq (BitVec.ofNat 32 (i 0).val) 0#32)) 0#32) = 1#1
/-- It holds at chunk 0 only. -/
theorem hcond0_0 : ∀ t : Fin cfg0.N, cond0_0 (grid0.coords t) ↔ t.val = 0 :=
  (by decide +kernel : ∀ t : Fin grid0.N, cond0_0 (grid0.coords t) ↔ t.val = 0)

/-- No window of either kernel is ever idle. -/
theorem liveAt0 : ∀ (w : Fin 6) (t : Fin cfg0.N), cfg0.idle w (grid0.coords t) = false := by decide +kernel
theorem liveAt1 : ∀ (w : Fin 3) (t : Fin cfg1.N), cfg1.idle w (grid1.coords t) = false := by decide +kernel

/-! ## The memrefs the kernels are called with -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The two buffers the support kernel keeps between chunks. -/
abbrev scM7 : Memref sig .tc .vmem S4096x128 .bf16 := Memref.whole cc0_scratch0
abbrev scM8 : Memref sig .tc .vmem S4096x128 .f32 := Memref.whole cc0_scratch1
abbrev VS7 : View sig .tc .vmem S4096x128 .bf16 := scM7.view
abbrev VS8 : View sig .tc .vmem S4096x128 .f32 := scM8.view
/-- One staging buffer of each output window, through which its contents are stated. -/
abbrev VO0_5 : View sig .tc .vmem S1024x128 .f32 := (Memref.whole cc0_stg5_0 : Memref sig .tc .vmem S1024x128 .f32).view
abbrev VO1_2 : View sig .tc .vmem S1024x128 .f32 := (Memref.whole cc1_stg2_0 : Memref sig .tc .vmem S1024x128 .f32).view

abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

/-! ## The scoped buffers beside the support kernel's staging buffers -/

/-- The output kernel's five staging buffers, each whole at some contents: untouched by the support kernel. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the support kernel beside its windows: the two kept buffers at some contents, the other
    kernel's staging buffers, the generator register. -/
theorem PhiA0_eq (c : Dev nD) :
    (Pipeline.ΦA spec0 c : sProp 𝕄)
      = iprop(iprop((∃ d, owns (c : Thread nD τ) scM7 fullShare d) ∗ (∃ d, owns (c : Thread nD τ) scM8 fullShare d) ∗ rest5 c) ∗ (∃ r, prngReg c r)) := by
  unfold Pipeline.ΦA rest5; rw [scopedRest0_eq]; simp only [scM7, scM8, owns_whole]; try rfl

/-! ## The windows' blocks, at the contents `V` the kernel is entered with -/

section Blocks
variable (V : (c : Dev nD) → (b : Ref sig .tc) → Buf (Elt F) ((c : Thread nD τ).loc b))

/-- Window `w`'s block of its array at chunk `t` (support kernel). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Window `w`'s block of its array at chunk `t` (output kernel). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every chunk, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.KFrame

end
-- ==== Proof.BRunA.lean ====
/-
  The support kernel's body at the first chunk: it loads the whole node-feature block, the attention row, the weights
  and the scalar, stores the softmax-scaled product and the alpha-scaled product into the two kept buffers, then
  multiplies the chunk of adj with the first and adds the chunk's rows of the second.  The pieces each written buffer
  ends with are found by running the body.
-/
import proofs.«170018_g850403524773_cont_9to1c4b_300_6_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first chunk, on whole memrefs — the five inputs' at their contents, the output's and the two kept buffers'
    at anything — the body runs to the continuation holding the inputs as they were and each written buffer with its
    pieces written. -/
noncomputable def kernelRun0_A (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S1024x4096 .f32) (harg5 : arg5.IsWhole) (arg6 : Memref sig .tc .vmem S1024x128 .f32) (harg6 : arg6.IsWhole) (arg7 : Memref sig .tc .vmem S4096x128 .bf16) (harg7 : arg7.IsWhole) (arg8 : Memref sig .tc .vmem S4096x128 .f32) (harg8 : arg8.IsWhole) (hc0 : cond0_0 i)
    (x0 : Vec F S4096x128 .f32) (x1 : Vec F S1x128 .f32) (x2 : Vec F S128x128 .f32) (x3 : Vec F S1x1 .f32) (x4 : Vec F S1024x4096 .f32) :
    Σ' (L6 : List (View.Piece (Elt F) S1024x128 .f32)) (L7 : List (View.Piece (Elt F) S4096x128 .bf16)), { L8 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__support_kernel i arg1 harg1 arg2 harg2 arg3 harg3 arg4 harg4 arg5 harg5 arg6 harg6 arg7 harg7 arg8 harg8) K } := by
  refine ⟨?_, ?_, ?_, fun E K => ?run⟩
  case run =>
    simp only [cc0__support_kernel_eq_skeleton]; unfold cc0__support_kernel_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    iexists _; iexact H8

end Cert.Kernel.KFrame

end
-- ==== Proof.BRunB.lean ====
/-
  The support kernel's body at a later chunk: it only multiplies the chunk of adj with the first kept buffer and adds
  the chunk's rows of the second, leaving both kept buffers as they were.
-/
import proofs.«170018_g850403524773_cont_9to1c4b_300_6_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later chunk, on whole memrefs — the adj chunk's at its contents, the two kept buffers' at theirs, the output's
    at anything — the body runs to the continuation holding those three as they were and the output with its pieces
    written. -/
noncomputable def kernelRun0_B (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S1024x4096 .f32) (harg5 : arg5.IsWhole) (arg6 : Memref sig .tc .vmem S1024x128 .f32) (harg6 : arg6.IsWhole) (arg7 : Memref sig .tc .vmem S4096x128 .bf16) (harg7 : arg7.IsWhole) (arg8 : Memref sig .tc .vmem S4096x128 .f32) (harg8 : arg8.IsWhole) (hc0 : ¬cond0_0 i)
    (x4 : Vec F S1024x4096 .f32) (xs7 : Vec F S4096x128 .bf16) (xs8 : Vec F S4096x128 .f32) :
    { L6 : List (View.Piece (Elt F) S1024x128 .f32) //
      ∀ (E : Set ℕ) (K : PUnit → sProp 𝕄),
        iprop(owns (c : Thread nD τ) arg5 fullShare x4 ∗ (∃ d, owns (c : Thread nD τ) arg6 fullShare d) ∗ owns (c : Thread nD τ) arg7 fullShare xs7 ∗ owns (c : Thread nD τ) arg8 fullShare xs8
            ∗ (iprop(owns (c : Thread nD τ) arg5 fullShare x4
                ∗ (∃ f, arg6.view.loc (c : Thread nD τ) ↦[arg6.view.set]{fullShare} arg6.view.writes (Elt F) f L6)
                ∗ owns (c : Thread nD τ) arg7 fullShare xs7 ∗ owns (c : Thread nD τ) arg8 fullShare xs8) -∗ K ⟨⟩))
          ⊢ wp frame (wpE (defs₀ (F := F)) Variants.none c none) E (cc0__support_kernel i arg1 harg1 arg2 harg2 arg3 harg3 arg4 harg4 arg5 harg5 arg6 harg6 arg7 harg7 arg8 harg8) K } := by
  refine ⟨?_, fun E K => ?run⟩
  case run =>
    simp only [cc0__support_kernel_eq_skeleton]; unfold cc0__support_kernel_skel
    unfold owns
    iintro ⟨⟨%f4, %hf4, H4⟩, ⟨%d6, %f6, -, H6⟩, ⟨%f7, %hf7, H7⟩, ⟨%f8, %hf8, H8⟩, Hk⟩
    obtain rfl := harg5.eq_unread hf4; obtain rfl := harg7.eq_unread hf7; obtain rfl := harg8.eq_unread hf8
    sl_exec (disch := first | exact hc0)
    sl_step
    iapply Hk
    isplitl [H4]
    · iexists _; isplitr; · ipureintro; exact harg5.read_unread _
      iexact H4
    isplitl [H6]; · iexists _; iexact H6
    isplitl [H7]
    · iexists _; isplitr; · ipureintro; exact harg7.read_unread _
      iexact H7
    iexists _; isplitr; · ipureintro; exact harg8.read_unread _
    iexact H8

end Cert.Kernel.KFrame

end
-- ==== Proof.BRun1.lean ====
/-
  The output kernel's body at any chunk: it multiplies the chunk of inc with the whole support and stores the product.
-/
import proofs.«170018_g850403524773_cont_9to1c4b_300_6_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the support's and the inc chunk's at their contents, the output's at anything — the body runs to
    the continuation holding the two inputs as they were and the output with its pieces written. -/
noncomputable def kernelRun1 (c : Dev nD) (i : grid1.Coords) (arg1 : Memref sig .tc .vmem S4096x128 .f32) (harg1 : arg1.IsWhole) (arg2 : Memref sig .tc .vmem S1024x4096 .f32) (harg2 : arg2.IsWhole) (arg3 : Memref sig .tc .vmem S1024x128 .f32) (harg3 : arg3.IsWhole)
    (x0 : Vec F S4096x128 .f32) (x1 : Vec F S1024x4096 .f32) :
    { L3 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)) -∗ K ⟨⟩))
          ⊢ wp frame (wpE (defs₀ (F := F)) Variants.none c none) E (cc1__output_kernel i arg1 harg1 arg2 harg2 arg3 harg3) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H3

end Cert.Kernel.KFrame

end
-- ==== Proof.BOuts.lean ====
/-
  What the two kernels leave, named.  The two kept buffers after the first chunk (`S7`: the softmax-scaled product;
  `S8`: the alpha-scaled product), read back from the pieces the first chunk's run stores; the support kernel's output
  block at a chunk (`out5`: at the first chunk from that same run, at a later chunk from the later-chunk run over the
  kept buffers' contents); the output kernel's output block at a chunk (`out1`).  Each list of pieces tiles its buffer.
-/
import proofs.«170018_g850403524773_cont_9to1c4b_300_6_alg».proof.Proof.BRunA
import proofs.«170018_g850403524773_cont_9to1c4b_300_6_alg».proof.Proof.BRunB
import proofs.«170018_g850403524773_cont_9to1c4b_300_6_alg».proof.Proof.BRun1

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Outs
variable (V : (c : Dev nD) → (b : Ref sig .tc) → Buf (Elt F) ((c : Thread nD τ).loc b))

/-- Chunk 0 is the first chunk. -/
theorem h00 : cond0_0 (grid0.coords (t0_0 : Fin cfg0.N)) := (hcond0_0 t0_0).mpr rfl

/-- The first chunk's run at the windows' blocks of `V`. -/
def runA (c : Dev nD) (t : Fin cfg0.N) (h : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) h
    (iblk0 V c 0 t) (iblk0 V c 1 t) (iblk0 V c 2 t) (iblk0 V c 3 t) (iblk0 V c 4 t)

/-- The first kept buffer after the first chunk. -/
def S7 (c : Dev nD) : Vec F S4096x128 .bf16 := VS7.read (Elt F) (VS7.writes (Elt F) VS7.junk (runA V c t0_0 h00).2.1)
/-- The second kept buffer after the first chunk. -/
def S8 (c : Dev nD) : Vec F S4096x128 .f32 := VS8.read (Elt F) (VS8.writes (Elt F) VS8.junk (runA V c t0_0 h00).2.2.1)

/-- A later chunk's run at the adj chunk of `V` and the kept buffers' contents. -/
def runB (c : Dev nD) (t : Fin cfg0.N) (h : ¬cond0_0 (grid0.coords t)) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) h
    (iblk0 V c 4 t) (S7 V c) (S8 V c)

theorem cover5A (c : Dev nD) (t : Fin cfg0.N) (h : cond0_0 (grid0.coords t)) (y : S1024x128.Idx) : ∃ pc ∈ (runA V c t h).1, y ∈ pc.1.set :=
  View.cover_of_tiledL (runA V c t h).1 S1024x128.size (by sl_kernel_rfl) y
theorem cover7 (c : Dev nD) (t : Fin cfg0.N) (h : cond0_0 (grid0.coords t)) (y : S4096x128.Idx) : ∃ pc ∈ (runA V c t h).2.1, y ∈ pc.1.set :=
  View.cover_of_tiledL (runA V c t h).2.1 S4096x128.size (by sl_kernel_rfl) y
theorem cover8 (c : Dev nD) (t : Fin cfg0.N) (h : cond0_0 (grid0.coords t)) (y : S4096x128.Idx) : ∃ pc ∈ (runA V c t h).2.2.1, y ∈ pc.1.set :=
  View.cover_of_tiledL (runA V c t h).2.2.1 S4096x128.size (by sl_kernel_rfl) y
theorem cover5B (c : Dev nD) (t : Fin cfg0.N) (h : ¬cond0_0 (grid0.coords t)) (y : S1024x128.Idx) : ∃ pc ∈ (runB V c t h).1, y ∈ pc.1.set :=
  View.cover_of_tiledL (runB V c t h).1 S1024x128.size (by sl_kernel_rfl) y

/-- The support kernel's output block after the first chunk, -/
def out5A (c : Dev nD) (t : Fin cfg0.N) (h : cond0_0 (grid0.coords t)) : Vec F S1024x128 .f32 :=
  VO0_5.read (Elt F) (VO0_5.writes (Elt F) VO0_5.junk (runA V c t h).1)
/-- after a later chunk, -/
def out5B (c : Dev nD) (t : Fin cfg0.N) (h : ¬cond0_0 (grid0.coords t)) : Vec F S1024x128 .f32 :=
  VO0_5.read (Elt F) (VO0_5.writes (Elt F) VO0_5.junk (runB V c t h).1)
/-- and after any chunk. -/
def out5 (c : Dev nD) (t : Fin cfg0.N) : Vec F S1024x128 .f32 :=
  if h : t.val = 0 then out5A V c t ((hcond0_0 t).mpr h) else out5B V c t (fun hc => h ((hcond0_0 t).mp hc))

/-- The output kernel's run at the windows' blocks of `V`. -/
def run1 (c : Dev nD) (t : Fin cfg1.N) :=
  kernelRun1 (F := F) c (grid1.coords t) (ms1_0 t) (hs1_0 t) (ms1_1 t) (hs1_1 t) (ms1_2 t) (hs1_2 t) (iblk1 V c 0 t) (iblk1 V c 1 t)
theorem cover1 (c : Dev nD) (t : Fin cfg1.N) (y : S1024x128.Idx) : ∃ pc ∈ (run1 V c t).1, y ∈ pc.1.set :=
  View.cover_of_tiledL (run1 V c t).1 S1024x128.size (by sl_kernel_rfl) y
/-- The output kernel's output block after a chunk. -/
def out1 (c : Dev nD) (t : Fin cfg1.N) : Vec F S1024x128 .f32 :=
  VO1_2.read (Elt F) (VO1_2.writes (Elt F) VO1_2.junk (run1 V c t).1)

end Outs

end Cert.Kernel.KFrame

end
-- ==== Proof.BFrame.lean ====
/-
  The two kernels' proof data and body obligations at the contents `V` each is entered with, and the whole run.

  Support kernel: the invariant between chunks is what the launch hands over before the first chunk and, from then on,
  the two kept buffers at their named contents (`S7`, `S8`) beside the other kernel's staging buffers and the generator
  register; each input window's staging buffer holds its block at every chunk; the output window's holds `out5`.
  Output kernel: the invariant is the launch's; the output window's buffer holds `out1`.
  The run: @main is two reshapes, the support kernel's region, the output kernel's region; between items every unscoped
  buffer is held at a named valuation (`W0` the launch contents, `W1` after the reshapes, `W2` with the support array at
  what the first region's write-backs leave, `W3` with the result array at what the second's leave), and every weakly
  fair execution ends with every unscoped buffer at `W3`.
-/
import proofs.«170018_g850403524773_cont_9to1c4b_300_6_alg».proof.Proof.BOuts

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The support kernel -/

/-- The invariant before chunk `n`. -/
def Phi0 (c : Dev nD) (n : ℕ) : sProp 𝕄 :=
  if n = 0 then Pipeline.ΦA spec0 c
  else iprop(iprop(owns (c : Thread nD τ) scM7 fullShare (S7 V c) ∗ owns (c : Thread nD τ) scM8 fullShare (S8 V c) ∗ rest5 c) ∗ (∃ r, prngReg c r))
theorem Phi0_zero (c : Dev nD) : Phi0 V c 0 = Pipeline.ΦA spec0 c := if_pos rfl
theorem Phi0_pos (c : Dev nD) (n : ℕ) (h : n ≠ 0) :
    Phi0 V c n = iprop(iprop(owns (c : Thread nD τ) scM7 fullShare (S7 V c) ∗ owns (c : Thread nD τ) scM8 fullShare (S8 V c) ∗ rest5 c) ∗ (∃ r, prngReg c r)) := if_neg h

/-- The support kernel's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out5 V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out5 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

theorem Phi0_castSucc (c : Dev nD) (t : Fin cfg0.N) : (dat0 V c).Φ t.castSucc = Phi0 V c t.val := by
  dsimp only [dat0]; simp only [Fin.coe_castSucc]

/-- What the body is called with at chunk `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any chunk: the first-chunk run or the later-chunk run, by the chunk's number. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi0_castSucc V c t, show (dat0 V c).Φ t.succ = Phi0 V c (t.val + 1) from rfl, Phi0_pos V c (t.val + 1) (Nat.succ_ne_zero _)]
  rw [show (dat0 V c).leavesExact 0 t = owns (c : Thread nD τ) (ms0_0 t) fullShare ((dat0 V c).after 0 t) from by
        unfold Dat.leavesExact; rw [liveAt0 0 t], after0_0,
    show (dat0 V c).leavesExact 1 t = owns (c : Thread nD τ) (ms0_1 t) fullShare ((dat0 V c).after 1 t) from by
        unfold Dat.leavesExact; rw [liveAt0 1 t], after0_1,
    show (dat0 V c).leavesExact 2 t = owns (c : Thread nD τ) (ms0_2 t) fullShare ((dat0 V c).after 2 t) from by
        unfold Dat.leavesExact; rw [liveAt0 2 t], after0_2,
    show (dat0 V c).leavesExact 3 t = owns (c : Thread nD τ) (ms0_3 t) fullShare ((dat0 V c).after 3 t) from by
        unfold Dat.leavesExact; rw [liveAt0 3 t], after0_3,
    show (dat0 V c).leavesExact 4 t = owns (c : Thread nD τ) (ms0_4 t) fullShare ((dat0 V c).after 4 t) from by
        unfold Dat.leavesExact; rw [liveAt0 4 t], after0_4,
    show (dat0 V c).leavesExact 5 t = owns (c : Thread nD τ) (ms0_5 t) fullShare ((dat0 V c).after 5 t) from by
        unfold Dat.leavesExact; rw [liveAt0 5 t], after0_5]
  by_cases h : t.val = 0
  · obtain rfl : t = t0_0 := Fin.ext h
    rw [show Phi0 V c (t0_0 : Fin cfg0.N).val = Pipeline.ΦA spec0 c from Phi0_zero V c, PhiA0_eq,
      show out5 V c t0_0 = out5A V c t0_0 ((hcond0_0 t0_0).mpr h) from dif_pos h]
    unfold out5A S7 S8
    iintro ⟨⟨⟨⟨%d7, HS7⟩, ⟨%d8, HS8⟩, Hr5⟩, Hg⟩, Ho, ⟨%d0, H0⟩, ⟨%d1, H1⟩, ⟨%d2, H2⟩, ⟨%d3, H3⟩, ⟨%d4, H4⟩, ⟨%d5, H5⟩⟩
    iapply ((runA V c t0_0 ((hcond0_0 t0_0).mpr h)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS7]; · iexists _; iexact HS7
    isplitl [HS8]; · iexists _; iexact HS8
    iintro ⟨H0, H1, H2, H3, H4, ⟨%e5, H5⟩, ⟨%e7, HS7⟩, ⟨%e8, HS8⟩⟩
    isplitl [HS7 HS8 Hr5 Hg]
    · isplitl [HS7 HS8 Hr5]
      · isplitl [HS7]
        · unfold owns; iexists _; isplitr
          swap; · iexact HS7
          ipureintro; exact View.read_writes_of_cover _ _ _ _ _ (cover7 V c t0_0 _)
        isplitl [HS8]
        · unfold owns; iexists _; isplitr
          swap; · iexact HS8
          ipureintro; exact View.read_writes_of_cover _ _ _ _ _ (cover8 V c t0_0 _)
        iexact Hr5
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5A V c t0_0 _)
  · rw [Phi0_pos V c t.val h, show out5 V c t = out5B V c t (fun hc => h ((hcond0_0 t).mp hc)) from dif_neg h]
    unfold out5B
    iintro ⟨⟨⟨HS7, HS8, Hr5⟩, Hg⟩, Ho, ⟨%d0, H0⟩, ⟨%d1, H1⟩, ⟨%d2, H2⟩, ⟨%d3, H3⟩, ⟨%d4, H4⟩, ⟨%d5, H5⟩⟩
    iapply ((runB V c t (fun hc => h ((hcond0_0 t).mp hc))).2 Set.univ _)
    isplitl [H4]; · iexact H4
    isplitl [H5]; · iexists _; iexact H5
    isplitl [HS7]; · iexact HS7
    isplitl [HS8]; · iexact HS8
    iintro ⟨H4, ⟨%e5, H5⟩, HS7, HS8⟩
    isplitl [HS7 HS8 Hr5 Hg]
    · isplitl [HS7 HS8 Hr5]
      · isplitl [HS7]; · iexact HS7
        isplitl [HS8]; · iexact HS8
        iexact Hr5
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5B V c t _)

/-- The support kernel's body obligation, at every chunk. -/
theorem body_obligation0 (c : Dev nD) : BodyObligation (dat0 (F := F) V c) (defs₀ (F := F)) Variants.none () Set.univ := fun t => by
  rw [bigSep_W0, bigSep_W0]
  exact sound_body0 V c t

/-- After the last chunk the invariant gives back what the launch handed over: the kept buffers' contents are forgotten. -/
theorem Phi_out0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 4 := N_0; omega), PhiA0_eq]
  iintro ⟨⟨HS7, HS8, Hr⟩, Hg⟩
  isplitl [HS7 HS8 Hr]
  · isplitl [HS7]; · iexists _; iexact HS7
    isplitl [HS8]; · iexists _; iexact HS8
    iexact Hr
  iexact Hg

/-! # The output kernel -/

/-- The output kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
        unfold Dat.leavesExact; rw [liveAt1 0 t], after1_0,
    show (dat1 V c).leavesExact 1 t = owns (c : Thread nD τ) (ms1_1 t) fullShare ((dat1 V c).after 1 t) from by
        unfold Dat.leavesExact; rw [liveAt1 1 t], after1_1,
    show (dat1 V c).leavesExact 2 t = owns (c : Thread nD τ) (ms1_2 t) fullShare ((dat1 V c).after 2 t) from by
        unfold Dat.leavesExact; rw [liveAt1 2 t], after1_2]
  unfold out1
  iintro ⟨HΦ, Ho, ⟨%d0, H0⟩, ⟨%d1, H1⟩, ⟨%d2, H2⟩⟩
  iapply ((run1 V c t).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 V c t)

theorem body_obligation1 (c : Dev nD) : BodyObligation (dat1 (F := F) V c) (defs₀ (F := F)) Variants.none () Set.univ := fun t => by
  rw [bigSep_W1, bigSep_W1]
  exact sound_body1 V c t

end Regions

end Cert.Kernel.KFrame

end
-- ==== Proof.BRun.lean ====
/-
  The whole run of @main: two reshapes, the support kernel's region, the output kernel's region.  Between items every
  unscoped buffer is held at a named valuation: `W0` the launch contents; `W1` after the reshapes; `W2` = `W1` with the
  support kernel's arrays at what its write-backs leave (inputs as entered, the support array at the fold of its four
  row chunks); `W3` = `W2` with the output kernel's arrays likewise.  Every weakly fair execution terminates with every
  unscoped buffer at `W3`; the six argument arrays read back through the fold to their launch contents.
-/
import proofs.«170018_g850403524773_cont_9to1c4b_300_6_alg».proof.Proof.BFrame

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The support kernel's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V1 m ρ) c]; unfold Pipeline.ΦA
    iintro ⟨Hp, -, Hr⟩
    isplitl [Hr]; · iexact Hr
    iexact Hp
  hout c := by
    rw [Pipeline.ownSems0_none]
    refine (Phi_out0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output kernel's region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.KFrame

end
-- ==== Proof.BEnds.lean ====
/-
  The ends of the run.  Each argument array is no output of either kernel and is written by neither reshape, so the fold
  `W3` at it walks back to the launch memory: the frame.  The result array is the output kernel's output window: `W3` at
  it is the fold of that kernel's four write-backs; the support array, in between, is the fold of the support kernel's.
-/
import proofs.«170018_g850403524773_cont_9to1c4b_300_6_alg».proof.Proof.BRun
import proofs.«170018_g850403524773_cont_9to1c4b_300_6_alg».proof.Proof.Gen.Kernel.Regions

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Neither reshape writes a buffer other than its own result. -/
theorem W1_of (c : Dev nD) (r : Ref sig .tc) (h : r ∉ (hostOps0_W : List (Ref sig .tc))) :
    W1 m ρ c (Proc.devRef .tc r) = m ((c : Thread nD τ).loc r) := Gen.V1_of m c r h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 4).trans (((dat0 (V1 m ρ) c).arrAt_in 4 rfl _).trans (A_eq0 (V1 m ρ) c 4))
    _ = m ((c : Thread nD τ).loc main_arg1) := W1_of m ρ c main_arg1 (by decide)
theorem W2_main_arg2 (c : Dev nD) : W2 m ρ c (Proc.devRef .tc main_arg2) = m ((c : Thread nD τ).loc main_arg2) :=
  (W2_of_ne m ρ c main_arg2 (by decide)).trans (W1_of m ρ c main_arg2 (by decide))
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 1).trans (((dat1 (V2 m ρ) c).arrAt_in 1 rfl _).trans (A_eq1 (V2 m ρ) c 1))
    _ = m ((c : Thread nD τ).loc main_arg2) := W2_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = m ((c : Thread nD τ).loc main_arg3) := W1_of m ρ c main_arg3 (by decide)
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))

/-- The result array ends at the fold of the output kernel's write-backs; -/
theorem W3_main_v0 (c : Dev nD) : W3 m ρ c (Proc.devRef .tc main_v0) = (dat1 (V2 m ρ) c).arrAt 2 cfg1.N := W3_arr m ρ c 2
/-- the support array, when the output kernel is entered, at the fold of the support kernel's. -/
theorem V2_support (c : Dev nD) : V2 m ρ c main_call0_v2 = (dat0 (V1 m ρ) c).arrAt 5 cfg0.N := W2_arr m ρ c 5
/-- The support kernel is entered with the arguments as launched. -/
theorem V1_main_arg0 (c : Dev nD) : V1 m ρ c main_arg0 = m ((c : Thread nD τ).loc main_arg0) := W1_of m ρ c main_arg0 (by decide)
theorem V1_main_arg1 (c : Dev nD) : V1 m ρ c main_arg1 = m ((c : Thread nD τ).loc main_arg1) := W1_of m ρ c main_arg1 (by decide)
theorem V1_main_arg3 (c : Dev nD) : V1 m ρ c main_arg3 = m ((c : Thread nD τ).loc main_arg3) := W1_of m ρ c main_arg3 (by decide)
theorem V2_main_arg2 (c : Dev nD) : V2 m ρ c main_arg2 = m ((c : Thread nD τ).loc main_arg2) := W2_main_arg2 m ρ c

/-- THE RUN with its ends named: the result array at the fold of the output kernel's write-backs, every argument array
    as launched. -/
theorem run_main : θ_run defs (onTc (τ := τ) (main (F := F))) ⟨m, fun _ => 0, ρ⟩ (fun r => ∀ c : Dev nD,
      r.2.mem ((c.tc : Thread nD τ).loc main_v0) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.KFrame

end
-- ==== Proof.KRuns.lean ====
/-
  The support kernel (four row chunks of adj, the first chunk also computing the softmax-scaled and the alpha-scaled
  products into two buffers kept between chunks) and the output kernel (four row chunks of inc against the whole
  support): what their runs share.  The branch taken at the first chunk only, decided over the four chunks; each
  operand's staging memref at a chunk; the two kept buffers as memrefs; every window's block of its array at a chunk;
  and an input window's staging buffer holding that block at every chunk, fetched there or not.
-/
import proofs.«170018_g850403524773_cont_9to1c4b_300_6_alg».proof.Proof.Gen.KernelIdeal.Launch
import proofs.«170018_g850403524773_cont_9to1c4b_300_6_alg».proof.Proof.Gen.KernelIdeal.Skeleton
import proofs.«170018_g850403524773_cont_9to1c4b_300_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The support kernel's branch: the first chunk only -/

/-- "This is the first chunk", as the kernel computes it from the chunk's coordinate. -/
abbrev cond0_0 (i : grid0.Coords) : Prop := (Scalar.cmpi .ne (Scalar.extui (Scalar.cmpi .eq (BitVec.ofNat 32 (i 0).val) 0#32)) 0#32) = 1#1
/-- It holds at chunk 0 only. -/
theorem hcond0_0 : ∀ t : Fin cfg0.N, cond0_0 (grid0.coords t) ↔ t.val = 0 :=
  (by decide +kernel : ∀ t : Fin grid0.N, cond0_0 (grid0.coords t) ↔ t.val = 0)

/-- No window of either kernel is ever idle. -/
theorem liveAt0 : ∀ (w : Fin 6) (t : Fin cfg0.N), cfg0.idle w (grid0.coords t) = false := by decide +kernel
theorem liveAt1 : ∀ (w : Fin 3) (t : Fin cfg1.N), cfg1.idle w (grid1.coords t) = false := by decide +kernel

/-! ## The memrefs the kernels are called with -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The two buffers the support kernel keeps between chunks. -/
abbrev scM7 : Memref sig .tc .vmem S4096x128 .bf16 := Memref.whole cc0_scratch0
abbrev scM8 : Memref sig .tc .vmem S4096x128 .f32 := Memref.whole cc0_scratch1
abbrev VS7 : View sig .tc .vmem S4096x128 .bf16 := scM7.view
abbrev VS8 : View sig .tc .vmem S4096x128 .f32 := scM8.view
/-- One staging buffer of each output window, through which its contents are stated. -/
abbrev VO0_5 : View sig .tc .vmem S1024x128 .f32 := (Memref.whole cc0_stg5_0 : Memref sig .tc .vmem S1024x128 .f32).view
abbrev VO1_2 : View sig .tc .vmem S1024x128 .f32 := (Memref.whole cc1_stg2_0 : Memref sig .tc .vmem S1024x128 .f32).view

abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

/-! ## The scoped buffers beside the support kernel's staging buffers -/

/-- The output kernel's five staging buffers, each whole at some contents: untouched by the support kernel. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the support kernel beside its windows: the two kept buffers at some contents, the other
    kernel's staging buffers, the generator register. -/
theorem PhiA0_eq (c : Dev nD) :
    (Pipeline.ΦA spec0 c : sProp 𝕄)
      = iprop(iprop((∃ d, owns (c : Thread nD τ) scM7 fullShare d) ∗ (∃ d, owns (c : Thread nD τ) scM8 fullShare d) ∗ rest5 c) ∗ (∃ r, prngReg c r)) := by
  unfold Pipeline.ΦA rest5; rw [scopedRest0_eq]; simp only [scM7, scM8, owns_whole]; try rfl

/-! ## The windows' blocks, at the contents `V` the kernel is entered with -/

section Blocks
variable (V : (c : Dev nD) → (b : Ref sig .tc) → Buf (Elt F) ((c : Thread nD τ).loc b))

/-- Window `w`'s block of its array at chunk `t` (support kernel). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Window `w`'s block of its array at chunk `t` (output kernel). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every chunk, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.KFrame

end
-- ==== Proof.KRunA.lean ====
/-
  The support kernel's body at the first chunk: it loads the whole node-feature block, the attention row, the weights
  and the scalar, stores the softmax-scaled product and the alpha-scaled product into the two kept buffers, then
  multiplies the chunk of adj with the first and adds the chunk's rows of the second.  The pieces each written buffer
  ends with are found by running the body.
-/
import proofs.«170018_g850403524773_cont_9to1c4b_300_6_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first chunk, on whole memrefs — the five inputs' at their contents, the output's and the two kept buffers'
    at anything — the body runs to the continuation holding the inputs as they were and each written buffer with its
    pieces written. -/
noncomputable def kernelRun0_A (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S1024x4096 .f32) (harg5 : arg5.IsWhole) (arg6 : Memref sig .tc .vmem S1024x128 .f32) (harg6 : arg6.IsWhole) (arg7 : Memref sig .tc .vmem S4096x128 .bf16) (harg7 : arg7.IsWhole) (arg8 : Memref sig .tc .vmem S4096x128 .f32) (harg8 : arg8.IsWhole) (hc0 : cond0_0 i)
    (x0 : Vec F S4096x128 .f32) (x1 : Vec F S1x128 .f32) (x2 : Vec F S128x128 .f32) (x3 : Vec F S1x1 .f32) (x4 : Vec F S1024x4096 .f32) :
    Σ' (L6 : List (View.Piece (Elt F) S1024x128 .f32)) (L7 : List (View.Piece (Elt F) S4096x128 .bf16)), { L8 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__support_kernel i arg1 harg1 arg2 harg2 arg3 harg3 arg4 harg4 arg5 harg5 arg6 harg6 arg7 harg7 arg8 harg8) K } := by
  refine ⟨?_, ?_, ?_, fun E K => ?run⟩
  case run =>
    simp only [cc0__support_kernel_eq_skeleton]; unfold cc0__support_kernel_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    iexists _; iexact H8

end Cert.KernelIdeal.KFrame

end
-- ==== Proof.KRunB.lean ====
/-
  The support kernel's body at a later chunk: it only multiplies the chunk of adj with the first kept buffer and adds
  the chunk's rows of the second, leaving both kept buffers as they were.
-/
import proofs.«170018_g850403524773_cont_9to1c4b_300_6_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later chunk, on whole memrefs — the adj chunk's at its contents, the two kept buffers' at theirs, the output's
    at anything — the body runs to the continuation holding those three as they were and the output with its pieces
    written. -/
noncomputable def kernelRun0_B (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x1 .f32) (harg4 : arg4.IsWhole) (arg5 : Memref sig .tc .vmem S1024x4096 .f32) (harg5 : arg5.IsWhole) (arg6 : Memref sig .tc .vmem S1024x128 .f32) (harg6 : arg6.IsWhole) (arg7 : Memref sig .tc .vmem S4096x128 .bf16) (harg7 : arg7.IsWhole) (arg8 : Memref sig .tc .vmem S4096x128 .f32) (harg8 : arg8.IsWhole) (hc0 : ¬cond0_0 i)
    (x4 : Vec F S1024x4096 .f32) (xs7 : Vec F S4096x128 .bf16) (xs8 : Vec F S4096x128 .f32) :
    { L6 : List (View.Piece (Elt F) S1024x128 .f32) //
      ∀ (E : Set ℕ) (K : PUnit → sProp 𝕄),
        iprop(owns (c : Thread nD τ) arg5 fullShare x4 ∗ (∃ d, owns (c : Thread nD τ) arg6 fullShare d) ∗ owns (c : Thread nD τ) arg7 fullShare xs7 ∗ owns (c : Thread nD τ) arg8 fullShare xs8
            ∗ (iprop(owns (c : Thread nD τ) arg5 fullShare x4
                ∗ (∃ f, arg6.view.loc (c : Thread nD τ) ↦[arg6.view.set]{fullShare} arg6.view.writes (Elt F) f L6)
                ∗ owns (c : Thread nD τ) arg7 fullShare xs7 ∗ owns (c : Thread nD τ) arg8 fullShare xs8) -∗ K ⟨⟩))
          ⊢ wp frame (wpE (defs₀ (F := F)) Variants.none c none) E (cc0__support_kernel i arg1 harg1 arg2 harg2 arg3 harg3 arg4 harg4 arg5 harg5 arg6 harg6 arg7 harg7 arg8 harg8) K } := by
  refine ⟨?_, fun E K => ?run⟩
  case run =>
    simp only [cc0__support_kernel_eq_skeleton]; unfold cc0__support_kernel_skel
    unfold owns
    iintro ⟨⟨%f4, %hf4, H4⟩, ⟨%d6, %f6, -, H6⟩, ⟨%f7, %hf7, H7⟩, ⟨%f8, %hf8, H8⟩, Hk⟩
    obtain rfl := harg5.eq_unread hf4; obtain rfl := harg7.eq_unread hf7; obtain rfl := harg8.eq_unread hf8
    sl_exec (disch := first | exact hc0)
    sl_step
    iapply Hk
    isplitl [H4]
    · iexists _; isplitr; · ipureintro; exact harg5.read_unread _
      iexact H4
    isplitl [H6]; · iexists _; iexact H6
    isplitl [H7]
    · iexists _; isplitr; · ipureintro; exact harg7.read_unread _
      iexact H7
    iexists _; isplitr; · ipureintro; exact harg8.read_unread _
    iexact H8

end Cert.KernelIdeal.KFrame

end
-- ==== Proof.KRun1.lean ====
/-
  The output kernel's body at any chunk: it multiplies the chunk of inc with the whole support and stores the product.
-/
import proofs.«170018_g850403524773_cont_9to1c4b_300_6_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the support's and the inc chunk's at their contents, the output's at anything — the body runs to
    the continuation holding the two inputs as they were and the output with its pieces written. -/
noncomputable def kernelRun1 (c : Dev nD) (i : grid1.Coords) (arg1 : Memref sig .tc .vmem S4096x128 .f32) (harg1 : arg1.IsWhole) (arg2 : Memref sig .tc .vmem S1024x4096 .f32) (harg2 : arg2.IsWhole) (arg3 : Memref sig .tc .vmem S1024x128 .f32) (harg3 : arg3.IsWhole)
    (x0 : Vec F S4096x128 .f32) (x1 : Vec F S1024x4096 .f32) :
    { L3 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)) -∗ K ⟨⟩))
          ⊢ wp frame (wpE (defs₀ (F := F)) Variants.none c none) E (cc1__output_kernel i arg1 harg1 arg2 harg2 arg3 harg3) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H3

end Cert.KernelIdeal.KFrame

end
-- ==== Proof.KOuts.lean ====
/-
  What the two kernels leave, named.  The two kept buffers after the first chunk (`S7`: the softmax-scaled product;
  `S8`: the alpha-scaled product), read back from the pieces the first chunk's run stores; the support kernel's output
  block at a chunk (`out5`: at the first chunk from that same run, at a later chunk from the later-chunk run over the
  kept buffers' contents); the output kernel's output block at a chunk (`out1`).  Each list of pieces tiles its buffer.
-/
import proofs.«170018_g850403524773_cont_9to1c4b_300_6_alg».proof.Proof.KRunA
import proofs.«170018_g850403524773_cont_9to1c4b_300_6_alg».proof.Proof.KRunB
import proofs.«170018_g850403524773_cont_9to1c4b_300_6_alg».proof.Proof.KRun1

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Outs
variable (V : (c : Dev nD) → (b : Ref sig .tc) → Buf (Elt F) ((c : Thread nD τ).loc b))

/-- Chunk 0 is the first chunk. -/
theorem h00 : cond0_0 (grid0.coords (t0_0 : Fin cfg0.N)) := (hcond0_0 t0_0).mpr rfl

/-- The first chunk's run at the windows' blocks of `V`. -/
def runA (c : Dev nD) (t : Fin cfg0.N) (h : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) h
    (iblk0 V c 0 t) (iblk0 V c 1 t) (iblk0 V c 2 t) (iblk0 V c 3 t) (iblk0 V c 4 t)

/-- The first kept buffer after the first chunk. -/
def S7 (c : Dev nD) : Vec F S4096x128 .bf16 := VS7.read (Elt F) (VS7.writes (Elt F) VS7.junk (runA V c t0_0 h00).2.1)
/-- The second kept buffer after the first chunk. -/
def S8 (c : Dev nD) : Vec F S4096x128 .f32 := VS8.read (Elt F) (VS8.writes (Elt F) VS8.junk (runA V c t0_0 h00).2.2.1)

/-- A later chunk's run at the adj chunk of `V` and the kept buffers' contents. -/
def runB (c : Dev nD) (t : Fin cfg0.N) (h : ¬cond0_0 (grid0.coords t)) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) h
    (iblk0 V c 4 t) (S7 V c) (S8 V c)

theorem cover5A (c : Dev nD) (t : Fin cfg0.N) (h : cond0_0 (grid0.coords t)) (y : S1024x128.Idx) : ∃ pc ∈ (runA V c t h).1, y ∈ pc.1.set :=
  View.cover_of_tiledL (runA V c t h).1 S1024x128.size (by sl_kernel_rfl) y
theorem cover7 (c : Dev nD) (t : Fin cfg0.N) (h : cond0_0 (grid0.coords t)) (y : S4096x128.Idx) : ∃ pc ∈ (runA V c t h).2.1, y ∈ pc.1.set :=
  View.cover_of_tiledL (runA V c t h).2.1 S4096x128.size (by sl_kernel_rfl) y
theorem cover8 (c : Dev nD) (t : Fin cfg0.N) (h : cond0_0 (grid0.coords t)) (y : S4096x128.Idx) : ∃ pc ∈ (runA V c t h).2.2.1, y ∈ pc.1.set :=
  View.cover_of_tiledL (runA V c t h).2.2.1 S4096x128.size (by sl_kernel_rfl) y
theorem cover5B (c : Dev nD) (t : Fin cfg0.N) (h : ¬cond0_0 (grid0.coords t)) (y : S1024x128.Idx) : ∃ pc ∈ (runB V c t h).1, y ∈ pc.1.set :=
  View.cover_of_tiledL (runB V c t h).1 S1024x128.size (by sl_kernel_rfl) y

/-- The support kernel's output block after the first chunk, -/
def out5A (c : Dev nD) (t : Fin cfg0.N) (h : cond0_0 (grid0.coords t)) : Vec F S1024x128 .f32 :=
  VO0_5.read (Elt F) (VO0_5.writes (Elt F) VO0_5.junk (runA V c t h).1)
/-- after a later chunk, -/
def out5B (c : Dev nD) (t : Fin cfg0.N) (h : ¬cond0_0 (grid0.coords t)) : Vec F S1024x128 .f32 :=
  VO0_5.read (Elt F) (VO0_5.writes (Elt F) VO0_5.junk (runB V c t h).1)
/-- and after any chunk. -/
def out5 (c : Dev nD) (t : Fin cfg0.N) : Vec F S1024x128 .f32 :=
  if h : t.val = 0 then out5A V c t ((hcond0_0 t).mpr h) else out5B V c t (fun hc => h ((hcond0_0 t).mp hc))

/-- The output kernel's run at the windows' blocks of `V`. -/
def run1 (c : Dev nD) (t : Fin cfg1.N) :=
  kernelRun1 (F := F) c (grid1.coords t) (ms1_0 t) (hs1_0 t) (ms1_1 t) (hs1_1 t) (ms1_2 t) (hs1_2 t) (iblk1 V c 0 t) (iblk1 V c 1 t)
theorem cover1 (c : Dev nD) (t : Fin cfg1.N) (y : S1024x128.Idx) : ∃ pc ∈ (run1 V c t).1, y ∈ pc.1.set :=
  View.cover_of_tiledL (run1 V c t).1 S1024x128.size (by sl_kernel_rfl) y
/-- The output kernel's output block after a chunk. -/
def out1 (c : Dev nD) (t : Fin cfg1.N) : Vec F S1024x128 .f32 :=
  VO1_2.read (Elt F) (VO1_2.writes (Elt F) VO1_2.junk (run1 V c t).1)

end Outs

end Cert.KernelIdeal.KFrame

end
-- ==== Proof.KFrame.lean ====
/-
  The two kernels' proof data and body obligations at the contents `V` each is entered with, and the whole run.

  Support kernel: the invariant between chunks is what the launch hands over before the first chunk and, from then on,
  the two kept buffers at their named contents (`S7`, `S8`) beside the other kernel's staging buffers and the generator
  register; each input window's staging buffer holds its block at every chunk; the output window's holds `out5`.
  Output kernel: the invariant is the launch's; the output window's buffer holds `out1`.
  The run: @main is two reshapes, the support kernel's region, the output kernel's region; between items every unscoped
  buffer is held at a named valuation (`W0` the launch contents, `W1` after the reshapes, `W2` with the support array at
  what the first region's write-backs leave, `W3` with the result array at what the second's leave), and every weakly
  fair execution ends with every unscoped buffer at `W3`.
-/
import proofs.«170018_g850403524773_cont_9to1c4b_300_6_alg».proof.Proof.KOuts

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The support kernel -/

/-- The invariant before chunk `n`. -/
def Phi0 (c : Dev nD) (n : ℕ) : sProp 𝕄 :=
  if n = 0 then Pipeline.ΦA spec0 c
  else iprop(iprop(owns (c : Thread nD τ) scM7 fullShare (S7 V c) ∗ owns (c : Thread nD τ) scM8 fullShare (S8 V c) ∗ rest5 c) ∗ (∃ r, prngReg c r))
theorem Phi0_zero (c : Dev nD) : Phi0 V c 0 = Pipeline.ΦA spec0 c := if_pos rfl
theorem Phi0_pos (c : Dev nD) (n : ℕ) (h : n ≠ 0) :
    Phi0 V c n = iprop(iprop(owns (c : Thread nD τ) scM7 fullShare (S7 V c) ∗ owns (c : Thread nD τ) scM8 fullShare (S8 V c) ∗ rest5 c) ∗ (∃ r, prngReg c r)) := if_neg h

/-- The support kernel's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out5 V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out5 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

theorem Phi0_castSucc (c : Dev nD) (t : Fin cfg0.N) : (dat0 V c).Φ t.castSucc = Phi0 V c t.val := by
  dsimp only [dat0]; simp only [Fin.coe_castSucc]

/-- What the body is called with at chunk `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any chunk: the first-chunk run or the later-chunk run, by the chunk's number. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi0_castSucc V c t, show (dat0 V c).Φ t.succ = Phi0 V c (t.val + 1) from rfl, Phi0_pos V c (t.val + 1) (Nat.succ_ne_zero _)]
  rw [show (dat0 V c).leavesExact 0 t = owns (c : Thread nD τ) (ms0_0 t) fullShare ((dat0 V c).after 0 t) from by
        unfold Dat.leavesExact; rw [liveAt0 0 t], after0_0,
    show (dat0 V c).leavesExact 1 t = owns (c : Thread nD τ) (ms0_1 t) fullShare ((dat0 V c).after 1 t) from by
        unfold Dat.leavesExact; rw [liveAt0 1 t], after0_1,
    show (dat0 V c).leavesExact 2 t = owns (c : Thread nD τ) (ms0_2 t) fullShare ((dat0 V c).after 2 t) from by
        unfold Dat.leavesExact; rw [liveAt0 2 t], after0_2,
    show (dat0 V c).leavesExact 3 t = owns (c : Thread nD τ) (ms0_3 t) fullShare ((dat0 V c).after 3 t) from by
        unfold Dat.leavesExact; rw [liveAt0 3 t], after0_3,
    show (dat0 V c).leavesExact 4 t = owns (c : Thread nD τ) (ms0_4 t) fullShare ((dat0 V c).after 4 t) from by
        unfold Dat.leavesExact; rw [liveAt0 4 t], after0_4,
    show (dat0 V c).leavesExact 5 t = owns (c : Thread nD τ) (ms0_5 t) fullShare ((dat0 V c).after 5 t) from by
        unfold Dat.leavesExact; rw [liveAt0 5 t], after0_5]
  by_cases h : t.val = 0
  · obtain rfl : t = t0_0 := Fin.ext h
    rw [show Phi0 V c (t0_0 : Fin cfg0.N).val = Pipeline.ΦA spec0 c from Phi0_zero V c, PhiA0_eq,
      show out5 V c t0_0 = out5A V c t0_0 ((hcond0_0 t0_0).mpr h) from dif_pos h]
    unfold out5A S7 S8
    iintro ⟨⟨⟨⟨%d7, HS7⟩, ⟨%d8, HS8⟩, Hr5⟩, Hg⟩, Ho, ⟨%d0, H0⟩, ⟨%d1, H1⟩, ⟨%d2, H2⟩, ⟨%d3, H3⟩, ⟨%d4, H4⟩, ⟨%d5, H5⟩⟩
    iapply ((runA V c t0_0 ((hcond0_0 t0_0).mpr h)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS7]; · iexists _; iexact HS7
    isplitl [HS8]; · iexists _; iexact HS8
    iintro ⟨H0, H1, H2, H3, H4, ⟨%e5, H5⟩, ⟨%e7, HS7⟩, ⟨%e8, HS8⟩⟩
    isplitl [HS7 HS8 Hr5 Hg]
    · isplitl [HS7 HS8 Hr5]
      · isplitl [HS7]
        · unfold owns; iexists _; isplitr
          swap; · iexact HS7
          ipureintro; exact View.read_writes_of_cover _ _ _ _ _ (cover7 V c t0_0 _)
        isplitl [HS8]
        · unfold owns; iexists _; isplitr
          swap; · iexact HS8
          ipureintro; exact View.read_writes_of_cover _ _ _ _ _ (cover8 V c t0_0 _)
        iexact Hr5
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5A V c t0_0 _)
  · rw [Phi0_pos V c t.val h, show out5 V c t = out5B V c t (fun hc => h ((hcond0_0 t).mp hc)) from dif_neg h]
    unfold out5B
    iintro ⟨⟨⟨HS7, HS8, Hr5⟩, Hg⟩, Ho, ⟨%d0, H0⟩, ⟨%d1, H1⟩, ⟨%d2, H2⟩, ⟨%d3, H3⟩, ⟨%d4, H4⟩, ⟨%d5, H5⟩⟩
    iapply ((runB V c t (fun hc => h ((hcond0_0 t).mp hc))).2 Set.univ _)
    isplitl [H4]; · iexact H4
    isplitl [H5]; · iexists _; iexact H5
    isplitl [HS7]; · iexact HS7
    isplitl [HS8]; · iexact HS8
    iintro ⟨H4, ⟨%e5, H5⟩, HS7, HS8⟩
    isplitl [HS7 HS8 Hr5 Hg]
    · isplitl [HS7 HS8 Hr5]
      · isplitl [HS7]; · iexact HS7
        isplitl [HS8]; · iexact HS8
        iexact Hr5
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5B V c t _)

/-- The support kernel's body obligation, at every chunk. -/
theorem body_obligation0 (c : Dev nD) : BodyObligation (dat0 (F := F) V c) (defs₀ (F := F)) Variants.none () Set.univ := fun t => by
  rw [bigSep_W0, bigSep_W0]
  exact sound_body0 V c t

/-- After the last chunk the invariant gives back what the launch handed over: the kept buffers' contents are forgotten. -/
theorem Phi_out0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 4 := N_0; omega), PhiA0_eq]
  iintro ⟨⟨HS7, HS8, Hr⟩, Hg⟩
  isplitl [HS7 HS8 Hr]
  · isplitl [HS7]; · iexists _; iexact HS7
    isplitl [HS8]; · iexists _; iexact HS8
    iexact Hr
  iexact Hg

/-! # The output kernel -/

/-- The output kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
        unfold Dat.leavesExact; rw [liveAt1 0 t], after1_0,
    show (dat1 V c).leavesExact 1 t = owns (c : Thread nD τ) (ms1_1 t) fullShare ((dat1 V c).after 1 t) from by
        unfold Dat.leavesExact; rw [liveAt1 1 t], after1_1,
    show (dat1 V c).leavesExact 2 t = owns (c : Thread nD τ) (ms1_2 t) fullShare ((dat1 V c).after 2 t) from by
        unfold Dat.leavesExact; rw [liveAt1 2 t], after1_2]
  unfold out1
  iintro ⟨HΦ, Ho, ⟨%d0, H0⟩, ⟨%d1, H1⟩, ⟨%d2, H2⟩⟩
  iapply ((run1 V c t).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 V c t)

theorem body_obligation1 (c : Dev nD) : BodyObligation (dat1 (F := F) V c) (defs₀ (F := F)) Variants.none () Set.univ := fun t => by
  rw [bigSep_W1, bigSep_W1]
  exact sound_body1 V c t

end Regions

end Cert.KernelIdeal.KFrame

end
-- ==== Proof.KRun.lean ====
/-
  The whole run of @main: two reshapes, the support kernel's region, the output kernel's region.  Between items every
  unscoped buffer is held at a named valuation: `W0` the launch contents; `W1` after the reshapes; `W2` = `W1` with the
  support kernel's arrays at what its write-backs leave (inputs as entered, the support array at the fold of its four
  row chunks); `W3` = `W2` with the output kernel's arrays likewise.  Every weakly fair execution terminates with every
  unscoped buffer at `W3`; the six argument arrays read back through the fold to their launch contents.
-/
import proofs.«170018_g850403524773_cont_9to1c4b_300_6_alg».proof.Proof.KFrame

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The support kernel's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V1 m ρ) c]; unfold Pipeline.ΦA
    iintro ⟨Hp, -, Hr⟩
    isplitl [Hr]; · iexact Hr
    iexact Hp
  hout c := by
    rw [Pipeline.ownSems0_none]
    refine (Phi_out0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output kernel's region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.KFrame

end
-- ==== Proof.KEnds.lean ====
/-
  The ends of the run.  Each argument array is no output of either kernel and is written by neither reshape, so the fold
  `W3` at it walks back to the launch memory: the frame.  The result array is the output kernel's output window: `W3` at
  it is the fold of that kernel's four write-backs; the support array, in between, is the fold of the support kernel's.
-/
import proofs.«170018_g850403524773_cont_9to1c4b_300_6_alg».proof.Proof.KRun
import proofs.«170018_g850403524773_cont_9to1c4b_300_6_alg».proof.Proof.Gen.KernelIdeal.Regions

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Neither reshape writes a buffer other than its own result. -/
theorem W1_of (c : Dev nD) (r : Ref sig .tc) (h : r ∉ (hostOps0_W : List (Ref sig .tc))) :
    W1 m ρ c (Proc.devRef .tc r) = m ((c : Thread nD τ).loc r) := Gen.V1_of m c r h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 4).trans (((dat0 (V1 m ρ) c).arrAt_in 4 rfl _).trans (A_eq0 (V1 m ρ) c 4))
    _ = m ((c : Thread nD τ).loc main_arg1) := W1_of m ρ c main_arg1 (by decide)
theorem W2_main_arg2 (c : Dev nD) : W2 m ρ c (Proc.devRef .tc main_arg2) = m ((c : Thread nD τ).loc main_arg2) :=
  (W2_of_ne m ρ c main_arg2 (by decide)).trans (W1_of m ρ c main_arg2 (by decide))
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 1).trans (((dat1 (V2 m ρ) c).arrAt_in 1 rfl _).trans (A_eq1 (V2 m ρ) c 1))
    _ = m ((c : Thread nD τ).loc main_arg2) := W2_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = m ((c : Thread nD τ).loc main_arg3) := W1_of m ρ c main_arg3 (by decide)
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_of m ρ c main_arg4 (by decide)))
theorem W3_main_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_of m ρ c main_arg5 (by decide)))

/-- The result array ends at the fold of the output kernel's write-backs; -/
theorem W3_main_v0 (c : Dev nD) : W3 m ρ c (Proc.devRef .tc main_v0) = (dat1 (V2 m ρ) c).arrAt 2 cfg1.N := W3_arr m ρ c 2
/-- the support array, when the output kernel is entered, at the fold of the support kernel's. -/
theorem V2_support (c : Dev nD) : V2 m ρ c main_call0_v2 = (dat0 (V1 m ρ) c).arrAt 5 cfg0.N := W2_arr m ρ c 5
/-- The support kernel is entered with the arguments as launched. -/
theorem V1_main_arg0 (c : Dev nD) : V1 m ρ c main_arg0 = m ((c : Thread nD τ).loc main_arg0) := W1_of m ρ c main_arg0 (by decide)
theorem V1_main_arg1 (c : Dev nD) : V1 m ρ c main_arg1 = m ((c : Thread nD τ).loc main_arg1) := W1_of m ρ c main_arg1 (by decide)
theorem V1_main_arg3 (c : Dev nD) : V1 m ρ c main_arg3 = m ((c : Thread nD τ).loc main_arg3) := W1_of m ρ c main_arg3 (by decide)
theorem V2_main_arg2 (c : Dev nD) : V2 m ρ c main_arg2 = m ((c : Thread nD τ).loc main_arg2) := W2_main_arg2 m ρ c

/-- THE RUN with its ends named: the result array at the fold of the output kernel's write-backs, every argument array
    as launched. -/
theorem run_main : θ_run defs (onTc (τ := τ) (main (F := F))) ⟨m, fun _ => 0, ρ⟩ (fun r => ∀ c : Dev nD,
      r.2.mem ((c.tc : Thread nD τ).loc main_v0) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (W3_main_v0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.KFrame

end
-- ==== Proof.KPieces.lean ====
/-
  The pieces the two kernels' runs store, read back as values: what each written buffer ends holding is the payload of
  its one covering store, applied to the windows' blocks (and, for the support kernel's output, to the two kept
  buffers' contents).
-/
import proofs.«170018_g850403524773_cont_9to1c4b_300_6_alg».proof.Proof.KOuts
import Idealize.ShloMosaic.Lib.Pipeline.Value

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (V : (c : Dev nD) → (b : Ref sig .tc) → Buf (Elt F) ((c : Thread nD τ).loc b))

/-- Two zero offsets, however spelt. -/
theorem hz2 : (![0, 0] : Fin 2 → Nat) = fun _ => 0 := funext fun a => by fin_cases a <;> rfl

/-- The output kernel's block at a chunk: its one covering store's payload, whose two loads read the whole staging
    buffers, the chunk of inc and the whole support. -/
theorem out1_eq (c : Dev nD) (t : Fin cfg1.N) : out1 V c t = Gen.k1_pay1 (iblk1 V c 1 t) (iblk1 V c 0 t) := by
  unfold out1
  rw [View.read_writes_eq_canon _ _ _ (cover1 V c t)]
  unfold run1 kernelRun1
  dsimp only
  rw [View.canon_unit_zero hz2]
  simp only [View.readAt_eq_ld, (hs1_1 t).read_unread, (hs1_0 t).read_unread, View.ld_unit_zero (S := S1024x4096) hz2,
    View.ld_unit_zero (S := S4096x128) hz2]

/-- The support kernel's block at a later chunk: its one covering store's payload, whose loads read the whole chunk
    of adj, the whole first kept buffer, and the chunk's rows of the second kept buffer. -/
theorem out5B_eq (c : Dev nD) (t : Fin cfg0.N) (h : ¬cond0_0 (grid0.coords t)) :
    out5B V c t h = Gen.k0_pay4 (iblk0 V c 4 t) (S7 V c)
      (View.ld (S8 V c) (Rect.unit (s := S4096x128) (k0_off1 (grid0.coords t)) S1024x128.size (k0_off1_inb (grid0.coords t)))) := by
  unfold out5B
  rw [View.read_writes_eq_canon _ _ _ (cover5B V c t h)]
  unfold runB kernelRun0_B
  dsimp only
  rw [View.canon_unit_zero hz2]
  simp only [View.readAt_eq_ld, (hs0_4 t).read_unread, (Memref.isWhole_whole _ : (scM7).IsWhole).read_unread,
    (Memref.isWhole_whole _ : (scM8).IsWhole).read_unread,
    View.ld_unit_zero (S := S1024x4096) hz2, View.ld_unit_zero (S := S4096x128) hz2]

/-- The first kept buffer after the first chunk: the one covering store's payload, whose loads read the whole
    node-feature block, the attention row and the weights. -/
theorem S7_eq (c : Dev nD) : S7 V c = Gen.k0_pay2 (iblk0 V c 0 t0_0) (iblk0 V c 1 t0_0) (iblk0 V c 2 t0_0) := by
  unfold S7
  rw [View.read_writes_eq_canon _ _ _ (cover7 V c t0_0 h00)]
  unfold runA kernelRun0_A
  dsimp only
  sl_unfold_run_names
  rw [View.canon_unit_zero hz2]
  simp only [View.readAt_eq_ld, (hs0_0 t0_0).read_unread, (hs0_1 t0_0).read_unread, (hs0_2 t0_0).read_unread,
    View.ld_unit_zero (S := S4096x128) hz2, View.ld_unit_zero (S := S1x128) hz2, View.ld_unit_zero (S := S128x128) hz2]

/-- The second kept buffer after the first chunk: the one covering store's payload, whose loads read the whole
    node-feature block, the weights and the scalar. -/
theorem S8_eq (c : Dev nD) : S8 V c = Gen.k0_pay3 (iblk0 V c 0 t0_0) (iblk0 V c 2 t0_0) (iblk0 V c 3 t0_0) := by
  unfold S8
  rw [View.read_writes_eq_canon _ _ _ (cover8 V c t0_0 h00)]
  unfold runA kernelRun0_A
  dsimp only
  sl_unfold_run_names
  rw [View.canon_unit_zero hz2]
  simp only [View.readAt_eq_ld, (hs0_0 t0_0).read_unread, (hs0_2 t0_0).read_unread, (hs0_3 t0_0).read_unread,
    View.ld_unit_zero (S := S4096x128) hz2, View.ld_unit_zero (S := S128x128) hz2, View.ld_unit_zero (S := S1x1) hz2]

/-- The support kernel's block at the first chunk: its last covering store's payload, whose loads read the whole chunk
    of adj, the first kept buffer back whole after the store that fills it, and the chunk's rows of the second kept
    buffer after the store that fills it. -/
theorem out5A_eq (c : Dev nD) (t : Fin cfg0.N) (h : cond0_0 (grid0.coords t)) :
    out5A V c t h = Gen.k0_pay4 (iblk0 V c 4 t) (Gen.k0_pay2 (iblk0 V c 0 t) (iblk0 V c 1 t) (iblk0 V c 2 t))
      (View.ld (Gen.k0_pay3 (iblk0 V c 0 t) (iblk0 V c 2 t) (iblk0 V c 3 t))
        (Rect.unit (s := S4096x128) (k0_off1 (grid0.coords t)) S1024x128.size (k0_off1_inb (grid0.coords t)))) := by
  unfold out5A
  rw [View.read_writes_eq_canon _ _ _ (cover5A V c t h)]
  unfold runA kernelRun0_A
  dsimp only
  sl_unfold_run_names
  rw [View.canon_unit_zero hz2, View.readCov_unit_zero (S := S4096x128) _ hz2]
  simp only [View.readAt_eq_ld, View.read_writes_junk_eq_canon, View.canon_unit_zero (S := S4096x128) hz2,
    (hs0_0 t).read_unread, (hs0_1 t).read_unread, (hs0_2 t).read_unread, (hs0_3 t).read_unread, (hs0_4 t).read_unread,
    View.ld_unit_zero (S := S4096x128) hz2, View.ld_unit_zero (S := S1x128) hz2, View.ld_unit_zero (S := S128x128) hz2,
    View.ld_unit_zero (S := S1x1) hz2, View.ld_unit_zero (S := S1024x4096) hz2]

end Pieces

end Cert.KernelIdeal.KFrame

end
-- ==== Proof.KBlocks.lean ====
/-
  The input windows' blocks, read at an index, and the rows the support kernel loads from its second kept buffer.

  A window's block at chunk `t` is the restriction of its array to a rectangle: on each axis the block's coordinate
  `y` sits at the array coordinate (block index at `t`) × (block size) + `y`.  The windows that take their whole
  array have block index 0 on both axes at every chunk, so their block IS the array; the two row-chunked windows
  (1024 of the 4096 rows per chunk) have block index `(t, 0)`, so entry `(p, j)` of the block is entry
  `(1024 · t + p, j)` of the array.  The block index maps are decided once over the four chunks of each grid.
  Likewise the support kernel's load of 1024 rows of its second kept buffer starts at the row offset it computes from
  the chunk's coordinate, `1024 · t`.
-/
import proofs.«170018_g850403524773_cont_9to1c4b_300_6_alg».proof.Proof.KFrame
import Idealize.ShloMosaic.Lib.ValueIdx

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The block index maps, decided once over the four chunks of each grid: a whole-array window sits at block (0, 0);
    a row-chunked window at block (t, 0). -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0 :=
  (by decide +kernel : ∀ t : Fin grid1.N, _)

/-- The row offset the support kernel computes for its load of the second kept buffer at chunk `t`: 1024 · t. -/
theorem off1_facts : ∀ t : Fin cfg0.N, k0_off1 (grid0.coords t) (0 : Fin 2) = 1024 * t.val ∧ k0_off1 (grid0.coords t) (1 : Fin 2) = 0 :=
  (by decide +kernel : ∀ t : Fin grid0.N, _)

section Blocks
variable (V : (c : Dev nD) → (b : Ref sig .tc) → Buf (Elt F) ((c : Thread nD τ).loc b))

/-! ## The support kernel's input windows: a block's entry is the array's entry at block index × block size + the
coordinate inside the block, axis by axis -/

theorem blk0_0 (c : Dev nD) (t : Fin cfg0.N) (y : S4096x128.Idx) : iblk0 V c 0 t y = V c main_arg0 y := by
  obtain ⟨e0, e1, -⟩ := idx_facts0 t
  unfold iblk0
  show V c main_arg0 (((cfg0.win 0).blk t).view.emb y) = V c main_arg0 y
  refine congrArg (V c main_arg0) ?_
  funext a; apply Fin.ext
  match a with
  | ⟨0, _⟩ => show win0_0.index t (0 : Fin 2) * 4096 + 1 * (y 0).val = (y 0).val; omega
  | ⟨1, _⟩ => show win0_0.index t (1 : Fin 2) * 128 + 1 * (y 1).val = (y 1).val; omega

theorem blk0_1 (c : Dev nD) (t : Fin cfg0.N) (y : S1x128.Idx) : iblk0 V c 1 t y = V c main_call0_v0 y := by
  obtain ⟨-, -, e0, e1, -⟩ := idx_facts0 t
  unfold iblk0
  show V c main_call0_v0 (((cfg0.win 1).blk t).view.emb y) = V c main_call0_v0 y
  refine congrArg (V c main_call0_v0) ?_
  funext a; apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem blk0_2 (c : Dev nD) (t : Fin cfg0.N) (y : S128x128.Idx) : iblk0 V c 2 t y = V c main_arg3 y := by
  obtain ⟨-, -, -, -, e0, e1, -⟩ := idx_facts0 t
  unfold iblk0
  show V c main_arg3 (((cfg0.win 2).blk t).view.emb y) = V c main_arg3 y
  refine congrArg (V c main_arg3) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk0_3 (c : Dev nD) (t : Fin cfg0.N) (y : S1x1.Idx) : iblk0 V c 3 t y = V c main_call0_v1 y := by
  obtain ⟨-, -, -, -, -, -, e0, e1, -⟩ := idx_facts0 t
  unfold iblk0
  show V c main_call0_v1 (((cfg0.win 3).blk t).view.emb y) = V c main_call0_v1 y
  refine congrArg (V c main_call0_v1) ?_
  funext a; apply Fin.ext
  match a with
  | ⟨0, _⟩ => show win0_3.index t (0 : Fin 2) * 1 + 1 * (y 0).val = (y 0).val; omega
  | ⟨1, _⟩ => show win0_3.index t (1 : Fin 2) * 1 + 1 * (y 1).val = (y 1).val; omega

theorem blk0_4 (c : Dev nD) (t : Fin cfg0.N) (p : Fin 1024) (j : Fin 4096) :
    iblk0 V c 4 t (ix2 p j) = V c main_arg1 (ix2 ⟨1024 * t.val + p.val, by have := t.isLt; have : cfg0.N = 4 := Gen.N_0; omega⟩ j) := by
  obtain ⟨-, -, -, -, -, -, -, -, e0, e1⟩ := idx_facts0 t
  unfold iblk0
  show V c main_arg1 (((cfg0.win 4).blk t).view.emb (ix2 p j)) = V c main_arg1 _
  refine congrArg (V c main_arg1) ?_
  funext a; apply Fin.ext
  match a with
  | ⟨0, _⟩ => show win0_4.index t (0 : Fin 2) * 1024 + 1 * p.val = 1024 * t.val + p.val; omega
  | ⟨1, _⟩ => show win0_4.index t (1 : Fin 2) * 4096 + 1 * j.val = j.val; omega

/-! ## The output kernel's input windows -/

theorem blk1_0 (c : Dev nD) (t : Fin cfg1.N) (y : S4096x128.Idx) : iblk1 V c 0 t y = V c main_call0_v2 y := by
  obtain ⟨e0, e1, -⟩ := idx_facts1 t
  unfold iblk1
  show V c main_call0_v2 (((cfg1.win 0).blk t).view.emb y) = V c main_call0_v2 y
  refine congrArg (V c main_call0_v2) ?_
  funext a; apply Fin.ext
  match a with
  | ⟨0, _⟩ => show win1_0.index t (0 : Fin 2) * 4096 + 1 * (y 0).val = (y 0).val; omega
  | ⟨1, _⟩ => show win1_0.index t (1 : Fin 2) * 128 + 1 * (y 1).val = (y 1).val; omega

theorem blk1_1 (c : Dev nD) (t : Fin cfg1.N) (p : Fin 1024) (k : Fin 4096) :
    iblk1 V c 1 t (ix2 p k) = V c main_arg2 (ix2 ⟨1024 * t.val + p.val, by have := t.isLt; have : cfg1.N = 4 := Gen.N_1; omega⟩ k) := by
  obtain ⟨-, -, e0, e1⟩ := idx_facts1 t
  unfold iblk1
  show V c main_arg2 (((cfg1.win 1).blk t).view.emb (ix2 p k)) = V c main_arg2 _
  refine congrArg (V c main_arg2) ?_
  funext a; apply Fin.ext
  match a with
  | ⟨0, _⟩ => show win1_1.index t (0 : Fin 2) * 1024 + 1 * p.val = 1024 * t.val + p.val; omega
  | ⟨1, _⟩ => show win1_1.index t (1 : Fin 2) * 4096 + 1 * k.val = k.val; omega

end Blocks

/-! ## The support kernel's load of the second kept buffer's rows at a later chunk -/

/-- Entry `(p, q)` of the 1024 × 128 rectangle the kernel loads at chunk `t` sits at row `1024 · t + p`, column `q`,
    of the buffer. -/
theorem off1_emb (t : Fin cfg0.N) (p : Fin 1024) (q : Fin 128) :
    (Rect.unit (s := S4096x128) (k0_off1 (grid0.coords t)) S1024x128.size (Gen.k0_off1_inb (grid0.coords t))).emb (ix2 p q)
      = ix2 ⟨1024 * t.val + p.val, by have := t.isLt; have : cfg0.N = 4 := Gen.N_0; omega⟩ q := by
  obtain ⟨e0, e1⟩ := off1_facts t
  funext a; apply Fin.ext
  match a with
  | ⟨0, _⟩ => show k0_off1 (grid0.coords t) (0 : Fin 2) + 1 * p.val = 1024 * t.val + p.val; omega
  | ⟨1, _⟩ => show k0_off1 (grid0.coords t) (1 : Fin 2) + 1 * q.val = q.val; omega

/-- The same for the index map of the rectangle read as a load's. -/
theorem off1_idx (t : Fin cfg0.N) (p : Fin 1024) (q : Fin 128) :
    (Rect.unit (s := S4096x128) (k0_off1 (grid0.coords t)) S1024x128.size (Gen.k0_off1_inb (grid0.coords t))).toLoadRect.idx (ix2 p q)
      = ix2 ⟨1024 * t.val + p.val, by have := t.isLt; have : cfg0.N = 4 := Gen.N_0; omega⟩ q :=
  off1_emb t p q

/-- So the loaded rows of contents `x` are `x`'s rows from `1024 · t`. -/
theorem ld_off1 (x : Vec F S4096x128 .f32) (t : Fin cfg0.N) (p : Fin 1024) (q : Fin 128) :
    View.ld x (Rect.unit (s := S4096x128) (k0_off1 (grid0.coords t)) S1024x128.size (Gen.k0_off1_inb (grid0.coords t))) (ix2 p q)
      = x (ix2 ⟨1024 * t.val + p.val, by have := t.isLt; have : cfg0.N = 4 := Gen.N_0; omega⟩ q) :=
  congrArg x (off1_emb t p q)

end Cert.KernelIdeal.KFrame

end
-- ==== Proof.KFinal.lean ====
/-
  From blocks to the whole array, for the two kernels' output windows.

  Each kernel writes its output in four row chunks of 1024 rows of a 4096 x 128 array; chunk `t`'s block is at block
  index `(t, 0)`, every chunk writes its block back, and row `r` lies in chunk `r / 1024`, so the blocks cover the
  array.  Hence, when what each chunk leaves in the output window is that chunk's block of ONE whole-array contents
  `G`, the array after the last chunk is `G` (`final0`, `final1`).  Beside that, the block's index arithmetic: the
  block of `G` at chunk `t`, read at row `p` and column `q`, is `G` at row `1024 t + p` and column `q`
  (`blk0_5_read`, `blk1_2_read`).
-/
import proofs.«170018_g850403524773_cont_9to1c4b_300_6_alg».proof.Proof.KFrame
import Idealize.ShloMosaic.Lib.Pipeline.Value
import Idealize.ShloMosaic.Lib.ValueIdx

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Final
variable (V : (c : Dev nD) → (b : Ref sig .tc) → Buf (Elt F) ((c : Thread nD τ).loc b))

/-! ## The support kernel's output window -/

/-- The window's block index at chunk `t` is `(t, 0)`: row chunk `t`, all the columns (decided over the four chunks). -/
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- An index of the array is in chunk `t`'s block iff each coordinate is in the block's range on its axis. -/
theorem mem_blk0_5 (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_call0_v2).slice (win0_5.rect t)).set ↔ _
  rw [View.set_slice_whole, Rect.mem_set_unit]
  exact Iff.rfl

/-- The four row chunks of 1024 rows cover the 4096 rows: row `r` is in chunk `r / 1024`, which is written back. -/
theorem cover0_5 (i : S4096x128.Idx) : ∃ t : Fin cfg0.N, (cfg0.win 5).flush t = true ∧ i ∈ ((cfg0.win 5).blk t).view.set := by
  have hN : cfg0.N = 4 := N_0
  have hi0 : (i 0).val < 4096 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨e0, e1⟩ := idx0_5 t
  refine ⟨t, flush0_5 t, ?_⟩
  rw [mem_blk0_5]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 128 ≤ (i 1).val ∧ (i 1).val < win0_5.index t (1 : Fin 2) * 128 + 128
    rw [e1]; omega

/-- When what every chunk leaves in the output window is that chunk's block of one whole-array contents `G`, the
    array ends holding `G`: every chunk writes its block back, and the blocks cover the array. -/
theorem final0 (c : Dev nD) (G : Buf (Elt F) ((cfg0.win 5).arr.view.loc (c : Thread nD τ)))
    (hG : ∀ t : Fin cfg0.N, out5 V c t = ((cfg0.win 5).blk t).view.read (Elt F) G) :
    (dat0 V c).arrAt 5 cfg0.N = G :=
  (dat0 V c).arrAt_eq_of_cover 5 G (fun t _ => by
    show (cfg0.win 5).cut (grid0.coords t) ((dat0 V c).after 5 t) = _
    rw [after0_5 V c t]
    exact hG t) cover0_5

/-- Chunk `t`'s block of a whole-array contents, at row `p` and column `q` of the block, is the array at row
    `1024 t + p` and column `q`: a block's coordinate is the block index times the block's size plus the coordinate inside. -/
theorem blk0_5_read (c : Dev nD) (G : Buf (Elt F) ((cfg0.win 5).arr.view.loc (c : Thread nD τ))) (t : Fin cfg0.N) (p : Fin 1024) (q : Fin 128) :
    ((cfg0.win 5).blk t).view.read (Elt F) G (ValueIdx.ix2 p q)
      = G (ValueIdx.ix2 (n0 := 4096) (n1 := 128) ⟨1024 * t.val + p.val, by have := t.isLt; have := p.isLt; have : cfg0.N = 4 := N_0; omega⟩ q) := by
  rw [View.read_apply]
  show G _ = G _
  refine congrArg G ?_
  funext a
  apply Fin.ext
  match a with
  | ⟨0, _⟩ =>
    show win0_5.index t (0 : Fin 2) * 1024 + 1 * p.val = 1024 * t.val + p.val
    rw [(idx0_5 t).1]; omega
  | ⟨1, _⟩ =>
    show win0_5.index t (1 : Fin 2) * 128 + 1 * q.val = q.val
    rw [(idx0_5 t).2]; omega

/-! ## The output kernel's output window -/

/-- The window's block index at chunk `t` is `(t, 0)`: row chunk `t`, all the columns (decided over the four chunks). -/
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- An index of the array is in chunk `t`'s block iff each coordinate is in the block's range on its axis. -/
theorem mem_blk1_2 (t : Fin cfg1.N) (i : S4096x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v0).slice (win1_2.rect t)).set ↔ _
  rw [View.set_slice_whole, Rect.mem_set_unit]
  exact Iff.rfl

/-- The four row chunks of 1024 rows cover the 4096 rows: row `r` is in chunk `r / 1024`, which is written back. -/
theorem cover1_2 (i : S4096x128.Idx) : ∃ t : Fin cfg1.N, (cfg1.win 2).flush t = true ∧ i ∈ ((cfg1.win 2).blk t).view.set := by
  have hN : cfg1.N = 4 := N_1
  have hi0 : (i 0).val < 4096 := (i 0).isLt
  have hi1 : (i 1).val < 128 := (i 1).isLt
  obtain ⟨t, ht⟩ : ∃ t : Fin cfg1.N, t.val = (i 0).val / 1024 := ⟨⟨(i 0).val / 1024, by omega⟩, rfl⟩
  obtain ⟨e0, e1⟩ := idx1_2 t
  refine ⟨t, flush1_2 t, ?_⟩
  rw [mem_blk1_2]
  intro a
  match a with
  | ⟨0, _⟩ =>
    show win1_2.index t (0 : Fin 2) * 1024 ≤ (i 0).val ∧ (i 0).val < win1_2.index t (0 : Fin 2) * 1024 + 1024
    rw [e0, ht]; omega
  | ⟨1, _⟩ =>
    show win1_2.index t (1 : Fin 2) * 128 ≤ (i 1).val ∧ (i 1).val < win1_2.index t (1 : Fin 2) * 128 + 128
    rw [e1]; omega

/-- When what every chunk leaves in the output window is that chunk's block of one whole-array contents `G`, the
    array ends holding `G`: every chunk writes its block back, and the blocks cover the array. -/
theorem final1 (c : Dev nD) (G : Buf (Elt F) ((cfg1.win 2).arr.view.loc (c : Thread nD τ)))
    (hG : ∀ t : Fin cfg1.N, out1 V c t = ((cfg1.win 2).blk t).view.read (Elt F) G) :
    (dat1 V c).arrAt 2 cfg1.N = G :=
  (dat1 V c).arrAt_eq_of_cover 2 G (fun t _ => by
    show (cfg1.win 2).cut (grid1.coords t) ((dat1 V c).after 2 t) = _
    rw [after1_2 V c t]
    exact hG t) cover1_2

/-- Chunk `t`'s block of a whole-array contents, at row `p` and column `q` of the block, is the array at row
    `1024 t + p` and column `q`: a block's coordinate is the block index times the block's size plus the coordinate inside. -/
theorem blk1_2_read (c : Dev nD) (G : Buf (Elt F) ((cfg1.win 2).arr.view.loc (c : Thread nD τ))) (t : Fin cfg1.N) (p : Fin 1024) (q : Fin 128) :
    ((cfg1.win 2).blk t).view.read (Elt F) G (ValueIdx.ix2 p q)
      = G (ValueIdx.ix2 (n0 := 4096) (n1 := 128) ⟨1024 * t.val + p.val, by have := t.isLt; have := p.isLt; have : cfg1.N = 4 := N_1; omega⟩ q) := by
  rw [View.read_apply]
  show G _ = G _
  refine congrArg G ?_
  funext a
  apply Fin.ext
  match a with
  | ⟨0, _⟩ =>
    show win1_2.index t (0 : Fin 2) * 1024 + 1 * p.val = 1024 * t.val + p.val
    rw [(idx1_2 t).1]; omega
  | ⟨1, _⟩ =>
    show win1_2.index t (1 : Fin 2) * 128 + 1 * q.val = q.val
    rw [(idx1_2 t).2]; omega

end Final

end Cert.KernelIdeal.KFrame

end
-- ==== Proof.Spec.lean ====
/-
  The mathematics of the hypergraph-attention aggregation, over the extended reals and abstract finite index types:
  nodes `ι`, input features `φ`, output features `ψ`.

  From a node-feature matrix `x`, an attention vector `a`, a scalar `al`, a weight matrix `w` and two node-by-node
  matrices `adj`, `inc`:
    logit i = Σ_f x i f · a f,   top = max_i logit i,   ew i = exp (logit i − top),   den = Σ_i ew i,   sm i = ew i / den
  (the softmax of the logits over the nodes).  Two arrangements of the same aggregate are named:
    `outK`:  inc · ( adj · ((x ⊙ sm) · w)  +  al · (x · w) )              (scale the rows, multiply by the weights first)
    `outR`:  inc · ( ( adj · (diag sm · x)  +  al · x ) · w )             (the explicit diagonal matrix, the weights last)
  They agree on real inputs (SpecLaw.lean): matrix products associate and distribute over sums of reals.
-/
import Idealize.ShloMosaic.PureOps.Ideal

noncomputable section

open scoped BigOperators

namespace Cert.HyperAttn

open Idealize.ShloMosaic

variable {ι φ ψ : Type} [Fintype ι] [Fintype φ] [Fintype ψ] [DecidableEq ι]

/-- The attention logit of node `i`. -/
def logit (x : ι → φ → EReal) (a : φ → EReal) (i : ι) : EReal := ∑ f, x i f * a f

/-- The largest logit (the fold of `max` from `⊥` over the nodes). -/
def top (x : ι → φ → EReal) (a : φ → EReal) : EReal := (Finset.univ : Finset ι).fold max ⊥ (logit x a)

/-- The shifted exponential of node `i`'s logit. -/
def ew (x : ι → φ → EReal) (a : φ → EReal) (i : ι) : EReal := Ideal.exp (logit x a i - top x a)

/-- The softmax denominator. -/
def den (x : ι → φ → EReal) (a : φ → EReal) : EReal := ∑ i, ew x a i

/-- The softmax weight of node `i`. -/
def sm (x : ι → φ → EReal) (a : φ → EReal) (i : ι) : EReal := Ideal.div (ew x a i) (den x a)

/-- Rows scaled by a node weight `s`, then times the weights. -/
def swK (x : ι → φ → EReal) (w : φ → ψ → EReal) (s : ι → EReal) (j : ι) (c : ψ) : EReal := ∑ f, (x j f * s j) * w f c

/-- The scalar multiple of `x · w`. -/
def aiwK (x : ι → φ → EReal) (w : φ → ψ → EReal) (al : EReal) (k : ι) (c : ψ) : EReal := al * ∑ f, x k f * w f c

/-- The support matrix, first arrangement. -/
def supK (x : ι → φ → EReal) (adj : ι → ι → EReal) (w : φ → ψ → EReal) (al : EReal) (s : ι → EReal) (k : ι) (c : ψ) : EReal :=
  (∑ j, adj k j * swK x w s j c) + aiwK x w al k c

/-- The output, first arrangement. -/
def outK (x : ι → φ → EReal) (adj inc : ι → ι → EReal) (w : φ → ψ → EReal) (al : EReal) (s : ι → EReal) (r : ι) (c : ψ) : EReal :=
  ∑ k, inc r k * supK x adj w al s k c

/-- The diagonal matrix of a node weight. -/
def diag (s : ι → EReal) (j j' : ι) : EReal := if j = j' then s j else 0

/-- `diag s · x`. -/
def dx (x : ι → φ → EReal) (s : ι → EReal) (j : ι) (f : φ) : EReal := ∑ j', diag s j j' * x j' f

/-- `adj · (diag s · x) + al · x`. -/
def preR (x : ι → φ → EReal) (adj : ι → ι → EReal) (al : EReal) (s : ι → EReal) (k : ι) (f : φ) : EReal :=
  (∑ j, adj k j * dx x s j f) + al * x k f

/-- The support matrix, second arrangement. -/
def supR (x : ι → φ → EReal) (adj : ι → ι → EReal) (w : φ → ψ → EReal) (al : EReal) (s : ι → EReal) (k : ι) (c : ψ) : EReal :=
  ∑ f, preR x adj al s k f * w f c

/-- The output, second arrangement. -/
def outR (x : ι → φ → EReal) (adj inc : ι → ι → EReal) (w : φ → ψ → EReal) (al : EReal) (s : ι → EReal) (r : ι) (c : ψ) : EReal :=
  ∑ k, inc r k * supR x adj w al s k c

end Cert.HyperAttn

end
-- ==== Proof.KSpecAt.lean ====
/-
  The specification read at a launch memory of the kernel program: the six argument arrays of core `c` as curried
  functions of literal coordinates, the softmax weights of the nodes, and the array the program's result is claimed to
  hold — the first arrangement `Cert.HyperAttn.outK` of the aggregate, index by index.
-/
import proofs.«170018_g850403524773_cont_9to1c4b_300_6_alg».proof.Proof.Gen.KernelIdeal
import proofs.«170018_g850403524773_cont_9to1c4b_300_6_alg».proof.Proof.Spec
import Idealize.ShloMosaic.Lib.ValueIdx

noncomputable section

namespace Cert.KernelIdeal.KSpec

open Cert.KernelIdeal Cert.HyperAttn Idealize.ShloMosaic Idealize.ShloMosaic.TcCoe Idealize.ShloMosaic.ValueIdx Idealize.SL.Sem

variable (m : (ℓ : Loc nD τ sig) → Buf (Elt Ideal) ℓ) (c : Dev nD)

/-- The node features, -/
def X : Fin 4096 → Fin 128 → EReal := fun p f => (m ((c.tc : Thread nD τ).loc main_arg0) : S4096x128.Idx → EReal) (ix2 p f)
/-- the adjacency matrix, -/
def ADJ : Fin 4096 → Fin 4096 → EReal := fun k j => (m ((c.tc : Thread nD τ).loc main_arg1) : S4096x4096.Idx → EReal) (ix2 k j)
/-- the incidence matrix, -/
def INC : Fin 4096 → Fin 4096 → EReal := fun r k => (m ((c.tc : Thread nD τ).loc main_arg2) : S4096x4096.Idx → EReal) (ix2 r k)
/-- the weights, -/
def WT : Fin 128 → Fin 128 → EReal := fun f q => (m ((c.tc : Thread nD τ).loc main_arg3) : S128x128.Idx → EReal) (ix2 f q)
/-- the attention vector, -/
def AV : Fin 128 → EReal := fun f => (m ((c.tc : Thread nD τ).loc main_arg4) : S128x1.Idx → EReal) (ix2 f 0)
/-- the scalar, -/
def AL : EReal := (m ((c.tc : Thread nD τ).loc main_arg5) : S1.Idx → EReal) (ix1 0)
/-- and the nodes' softmax weights. -/
def SM : Fin 4096 → EReal := sm (X m c) (AV m c)

/-- The support matrix as a whole array. -/
def Gsup : S4096x128.Idx → EReal := fun i => supK (X m c) (ADJ m c) (WT m c) (AL m c) (SM m c) (i 0) (i 1)
/-- The result as a whole array. -/
def Gout : S4096x128.Idx → EReal := fun i => outK (X m c) (ADJ m c) (INC m c) (WT m c) (AL m c) (SM m c) (i 0) (i 1)

theorem Gsup_apply (k : Fin 4096) (q : Fin 128) : Gsup m c (ix2 k q) = supK (X m c) (ADJ m c) (WT m c) (AL m c) (SM m c) k q := rfl
theorem Gout_apply (r : Fin 4096) (q : Fin 128) : Gout m c (ix2 r q) = outK (X m c) (ADJ m c) (INC m c) (WT m c) (AL m c) (SM m c) r q := rfl

end Cert.KernelIdeal.KSpec

end
-- ==== Proof.KernelValue.lean ====
/-
  The kernels' arithmetic read at an entry, over the extended reals.

  Each stored value of the two kernels is a composition of entrywise operations, changes of format (the identity on
  extended reals) and matrix products into the zero matrix.  Read at the entry `(p, c)`, a product of an `m × K` by a
  `K × n` matrix is the sum over the contracted coordinate `k : Fin K` of `A (p, k) · B (k, c)`: the contraction
  index of the product has one axis, and the sum is re-indexed through the bijection of that index with its coordinate.
  With that, the second kernel's block is `Σ_k v0 (p, k) · v2 (k, c)`, the first kernel's output block is the same sum
  plus the staged addend, and the scaled product is `al · Σ_f x (k, f) · w (f, c)`.
-/
import proofs.«170018_g850403524773_cont_9to1c4b_300_6_alg».proof.Proof.Gen.KernelIdeal.Skeleton
import proofs.«170018_g850403524773_cont_9to1c4b_300_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Cert.HyperAttn Idealize.ShloMosaic Idealize.ShloMosaic.ValueIdx

/-- The product of a 1024×4096 by a 4096×128 matrix into the zero matrix, read at an entry: the sum over the
    contracted coordinate of the products of the entries. -/
theorem matmul_1024_apply {φ₁ φ₂ : FTy} (A : FVec Ideal S1024x4096 φ₁) (B : FVec Ideal S4096x128 φ₂) (p : Fin 1024) (c : Fin 128) :
    matmul dot_S1024x4096_S4096x128_S1024x128_1_0_0_1_n_n none A B (constant (F := Ideal) S1024x128 .f32 0x00000000#32) (ix2 p c)
      = ∑ k : Fin 4096, A (ix2 p k) * B (ix2 k c) := by
  show FloatOps.matmul _ none A B _ (ix2 p c) = _
  rw [Ideal.matmul_constant_zero_apply,
    ← Equiv.sum_comp (contrEquiv1 dot_S1024x4096_S4096x128_S1024x128_1_0_0_1_n_n 4096 rfl rfl).symm]
  refine Finset.sum_congr rfl fun k _ => ?_
  have ck := contrEquiv1_symm_val dot_S1024x4096_S4096x128_S1024x128_1_0_0_1_n_n 4096 rfl rfl k
  have l2 : dot_S1024x4096_S4096x128_S1024x128_1_0_0_1_n_n.lhsIdx (ix2 p c)
      ((contrEquiv1 dot_S1024x4096_S4096x128_S1024x128_1_0_0_1_n_n 4096 rfl rfl).symm k) = ix2 p k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact ck
  have r2 : dot_S1024x4096_S4096x128_S1024x128_1_0_0_1_n_n.rhsIdx (ix2 p c)
      ((contrEquiv1 dot_S1024x4096_S4096x128_S1024x128_1_0_0_1_n_n 4096 rfl rfl).symm k) = ix2 k c := by
    funext ax; apply Fin.ext
    match ax with
    | ⟨0, _⟩ => simp [DotDims.rhsIdx, dot_S1024x4096_S4096x128_S1024x128_1_0_0_1_n_n]; exact ck
    | ⟨1, _⟩ => simp [DotDims.rhsIdx, dot_S1024x4096_S4096x128_S1024x128_1_0_0_1_n_n]; rfl
  rw [l2, r2]

/-- The product of a 4096×128 by a 128×128 matrix into the zero matrix, read at an entry. -/
theorem matmul_4096_apply {φ₁ φ₂ : FTy} (A : FVec Ideal S4096x128 φ₁) (B : FVec Ideal S128x128 φ₂) (j : Fin 4096) (c : Fin 128) :
    matmul dot_S4096x128_S128x128_S4096x128_1_0_0_1_n_n none A B (constant (F := Ideal) S4096x128 .f32 0x00000000#32) (ix2 j c)
      = ∑ f : Fin 128, A (ix2 j f) * B (ix2 f c) := by
  show FloatOps.matmul _ none A B _ (ix2 j c) = _
  rw [Ideal.matmul_constant_zero_apply,
    ← Equiv.sum_comp (contrEquiv1 dot_S4096x128_S128x128_S4096x128_1_0_0_1_n_n 128 rfl rfl).symm]
  refine Finset.sum_congr rfl fun f _ => ?_
  have ck := contrEquiv1_symm_val dot_S4096x128_S128x128_S4096x128_1_0_0_1_n_n 128 rfl rfl f
  have l2 : dot_S4096x128_S128x128_S4096x128_1_0_0_1_n_n.lhsIdx (ix2 j c)
      ((contrEquiv1 dot_S4096x128_S128x128_S4096x128_1_0_0_1_n_n 128 rfl rfl).symm f) = ix2 j f := by
    funext ax; apply Fin.ext
    match ax with
    | ⟨0, _⟩ => simp [DotDims.lhsIdx, dot_S4096x128_S128x128_S4096x128_1_0_0_1_n_n]; rfl
    | ⟨1, _⟩ => simp [DotDims.lhsIdx, dot_S4096x128_S128x128_S4096x128_1_0_0_1_n_n]; exact ck
  have r2 : dot_S4096x128_S128x128_S4096x128_1_0_0_1_n_n.rhsIdx (ix2 j c)
      ((contrEquiv1 dot_S4096x128_S128x128_S4096x128_1_0_0_1_n_n 128 rfl rfl).symm f) = ix2 f c := by
    funext ax; apply Fin.ext
    match ax with
    | ⟨0, _⟩ => simp [DotDims.rhsIdx, dot_S4096x128_S128x128_S4096x128_1_0_0_1_n_n]; exact ck
    | ⟨1, _⟩ => simp [DotDims.rhsIdx, dot_S4096x128_S128x128_S4096x128_1_0_0_1_n_n]; rfl
  rw [l2, r2]

/-- The second kernel's stored value at an entry: row `p` of the first operand against column `c` of the second. -/
theorem k1_pay1_apply (v0 : Vec Ideal S1024x4096 .f32) (v2 : Vec Ideal S4096x128 .f32) (p : Fin 1024) (c : Fin 128) :
    Gen.k1_pay1 (F := Ideal) v0 v2 (ix2 p c) = ∑ k : Fin 4096, v0 (ix2 p k) * v2 (ix2 k c) := by
  unfold Gen.k1_pay1
  refine (matmul_1024_apply (φ₁ := .bf16) (φ₂ := .bf16) _ _ p c).trans ?_
  refine Finset.sum_congr rfl fun k _ => ?_
  rw [shapeCast_self]
  rfl

/-- The first kernel's output block at an entry: the block's row of the first operand against column `c` of the
    staged matrix, plus the staged addend. -/
theorem pay4_apply (v4 : Vec Ideal S1024x4096 .f32) (v6 : Vec Ideal S4096x128 .bf16) (v9 : Vec Ideal S1024x128 .f32) (p : Fin 1024) (c : Fin 128) :
    Gen.k0_pay4 (F := Ideal) v4 v6 v9 (ix2 p c) = (∑ j : Fin 4096, v4 (ix2 p j) * v6 (ix2 j c)) + v9 (ix2 p c) := by
  unfold Gen.k0_pay4
  refine (addf_apply _ _ _).trans ?_
  refine congrArg (· + v9 (ix2 p c)) ?_
  refine (matmul_1024_apply (φ₁ := .bf16) (φ₂ := .bf16) _ v6 p c).trans ?_
  rfl

/-- The scaled product `al · (x · w)` at an entry. -/
theorem pay3_apply (v12 : Vec Ideal S4096x128 .f32) (v32 : Vec Ideal S128x128 .f32) (v42 : Vec Ideal S1x1 .f32) (k : Fin 4096) (c : Fin 128) :
    Gen.k0_pay3 (F := Ideal) v12 v32 v42 (ix2 k c) = aiwK (fun p f => v12 (ix2 p f)) (fun f c => v32 (ix2 f c)) (v42 (ix2 0 0)) k c := by
  unfold Gen.k0_pay3 Gen.k0_pay1 aiwK
  rw [shapeCast_self]
  refine (mulf_apply _ _ _).trans ?_
  have e : extractAt ![0, 0] v42 inpos_S1x1_p0_0 = v42 (ix2 0 0) := by
    unfold extractAt
    refine congrArg v42 ?_
    funext a
    match a with
    | ⟨0, _⟩ => rfl
    | ⟨1, _⟩ => rfl
  rw [broadcast_apply, e]
  refine congrArg (v42 (ix2 0 0) * ·) ?_
  refine (matmul_4096_apply (φ₁ := .bf16) (φ₂ := .bf16) _ _ k c).trans ?_
  rfl

end Cert.KernelIdeal.KValue

end
-- ==== Proof.KHost.lean ====
/-
  The two reshapes the kernel program performs before its first call, read at an index, at any float values:
  the attention column as a row, the scalar as a one-by-one matrix; and every other array unchanged by them.
-/
import proofs.«170018_g850403524773_cont_9to1c4b_300_6_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.KHost

open Cert.KernelIdeal Cert.KernelIdeal.Gen Idealize.ShloMosaic Idealize.ShloMosaic.ValueIdx

variable {F : FTy → Type} [FloatOps F]

/-- The attention vector reshaped to one row: entry (0, f) of the row is entry (f, 0) of the column. -/
theorem attn_row (W : Valuation τ sig (Elt F)) (f : Fin 128) :
    (StableHlo.after (hostOps0 (F := F)) W (Proc.devRef .tc main_call0_v0) : S1x128.Idx → F .f32) (ix2 0 f)
      = (W (Proc.devRef .tc main_arg4) : S128x1.Idx → F .f32) (ix2 f 0) := by
  have e : (StableHlo.after (hostOps0 (F := F)) W (Proc.devRef .tc main_call0_v0) : S1x128.Idx → F .f32)
      = shapeCast S1x128 (W (Proc.devRef .tc main_arg4) : S128x1.Idx → F .f32) shapeCasts_S128x1_S1x128 := by
    dsimp only [hostOps0]
    after_results
    rfl
  rw [e]
  exact shapeCast_apply _ _ (ix2 0 f) (ix2 f 0) (by
    rw [Shape.rowMajor_val_two, Shape.rowMajor_val_two]
    show f.val * 1 + 0 = 0 * 128 + f.val
    omega)

/-- The scalar reshaped to a one-by-one matrix: its one entry. -/
theorem alpha_cell (W : Valuation τ sig (Elt F)) :
    (StableHlo.after (hostOps0 (F := F)) W (Proc.devRef .tc main_call0_v1) : S1x1.Idx → F .f32) (ix2 0 0)
      = (W (Proc.devRef .tc main_arg5) : S1.Idx → F .f32) (ix1 0) := by
  have e : (StableHlo.after (hostOps0 (F := F)) W (Proc.devRef .tc main_call0_v1) : S1x1.Idx → F .f32)
      = shapeCast S1x1 (W (Proc.devRef .tc main_arg5) : S1.Idx → F .f32) shapeCasts_S1_S1x1 := by
    dsimp only [hostOps0]
    after_results
    rfl
  rw [e]
  exact shapeCast_apply _ _ (ix2 0 0) (ix1 0) (by
    rw [Shape.rowMajor_val_two, Shape.rowMajor_val_one]
    show 0 = 0 * 1 + 0
    omega)

/-- Every other array is what it was. -/
theorem kept (W : Valuation τ sig (Elt F)) (b : Ref sig .tc) (hb : b ≠ main_call0_v0 ∧ b ≠ main_call0_v1) :
    StableHlo.after (hostOps0 (F := F)) W (Proc.devRef .tc b) = W (Proc.devRef .tc b) :=
  StableHlo.after_of_forall_not_mem _ _ (fun op hop hw => by
    rcases List.mem_cons.mp hop with rfl | hop
    · rw [StableHlo.reshape_writes] at hw
      exact hb.1 (Proc.devRef_injective _ (Finset.mem_singleton.mp hw))
    · rcases List.mem_cons.mp hop with rfl | hop
      · rw [StableHlo.reshape_writes] at hw
        exact hb.2 (Proc.devRef_injective _ (Finset.mem_singleton.mp hw))
      · exact absurd hop (List.not_mem_nil))

end Cert.KernelIdeal.KHost

end
-- ==== Proof.KernelSoftmax.lean ====
/-
  The softmax-scaled product of the first kernel, read at an entry, over the extended reals.

  From the node features `x` (4096 × 128) and the attention row `a` (1 × 128) the kernel forms the column of logits
  `logit p = Σ_f x (p, f) · a (0, f)` (a lane sum of the entrywise product with `a` repeated down the rows), its largest
  entry `top` (the fold of `max` from the bottom of the extended reals: the accumulator's word denotes `⊥`), the shifted
  exponentials `ew p = exp (logit p − top)`, their sum `den`, and the quotients `sm p = ew p / den`; it then scales row
  `p` of `x` by `sm p` and multiplies by the weights: `Σ_f (x (j, f) · sm j) · w (f, c)`.

  Between these steps the kernel only re-lays the column out: `[4096] → [4096, 1] → [1, 4096, 1]`, a reduction of the
  `[1, 4096, 1]` array over its last two axes into a `[1]` array (every entry contributes, since the kept axis has one
  coordinate), that one entry read back through `[1, 1, 1]`, and the column `[4096, 1]` repeated across the 128 lanes.
  Each re-layout read at an index is the operand at the index with the same row-major position; the sum and the fold
  over the `[1, 4096, 1]` index set are re-indexed by the middle coordinate.
-/
import proofs.«170018_g850403524773_cont_9to1c4b_300_6_alg».proof.Proof.KernelValue

noncomputable section

open scoped BigOperators

namespace Cert.KernelIdeal.KValue

open Cert.KernelIdeal Cert.KernelIdeal.Gen Cert.HyperAttn Idealize.ShloMosaic Idealize.ShloMosaic.ValueIdx

variable {α : Type}

/-! ## Column forms of the layout operations, read at an index -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1]` array, read through its cast to `[1, 1, 1]` at position `(0, 0, 0)`. -/
theorem extractAt_shapeCast_111 (v : (⟨1, ![1]⟩ : Shape).Idx → α) (h : (⟨1, ![1]⟩ : Shape).ShapeCasts ⟨3, ![1, 1, 1]⟩)
    (h' : ∀ a, (![0, 0, 0] : Fin 3 → Nat) a < (⟨3, ![1, 1, 1]⟩ : Shape).size a) :
    extractAt ![0, 0, 0] (shapeCast ⟨3, ![1, 1, 1]⟩ v h) h' = v (ix1 (0 : Fin 1)) := by
  unfold extractAt
  refine shapeCast_apply v h _ _ ?_
  rw [Shape.rowMajor_val_three, Shape.rowMajor_val_one]
  rfl

/-- The indices of a `[1, n, 1]` array are its middle coordinates. -/
def midEquiv (n : ℕ) : Fin n ≃ (⟨3, ![1, n, 1]⟩ : Shape).Idx where
  toFun p := ix3 (0 : Fin 1) p (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _

/-- The negative infinity's word denotes the bottom of the extended reals. -/
theorem ofBits_neg_inf_f32 : Ideal.ofBits .f32 0xFF800000#32 = ⊥ := by simp [Ideal.ofBits, Ideal.ieee]

/-- The sum of a `[1, 4096, 1]` array over every entry: the sum over the middle coordinate. -/
theorem sum_all_1n1 (w : FVec Ideal S1x4096x1 .f32) (h : S1x4096x1.Reduces [1, 2] S1) (hφ : FKind.Formats .f32)
    (hacc : (0x00000000#32 : BitVec 32) = FKind.add.neutral .f32 hφ) (j : S1.Idx) :
    multiReduction .add [1, 2] S1 w 0x00000000#32 h hφ hacc j = ∑ p : Fin 4096, w (ix3 (0 : Fin 1) p (0 : Fin 1)) := by
  refine (Ideal.multiReduction_add_total w _ h (fun b => by match b with | ⟨0, _⟩ => rfl) hφ hacc j).trans ?_
  exact (Equiv.sum_comp (midEquiv 4096) w).symm

/-- The maximum of a `[1, 4096, 1]` array over every entry: the fold of `max` from the bottom over the middle coordinate. -/
theorem max_all_1n1 (w : FVec Ideal S1x4096x1 .f32) (h : S1x4096x1.Reduces [1, 2] S1) (hφ : FKind.Formats .f32)
    (hacc : (0xFF800000#32 : BitVec 32) = FKind.maximumf.neutral .f32 hφ) (j : S1.Idx) :
    multiReduction .maximumf [1, 2] S1 w 0xFF800000#32 h hφ hacc j
      = (Finset.univ : Finset (Fin 4096)).fold max ⊥ (fun p => w (ix3 (0 : Fin 1) p (0 : Fin 1))) := by
  refine (multiReduction_maximumf_eq_fold w _ h hφ hacc j).trans ?_
  rw [Finset.filter_true_of_mem fun i _ => funext fun b => Fin.ext (by
    have := (h.drop i b).isLt; have := (j b).isLt
    match b with
    | ⟨0, _⟩ => show (h.drop i 0).val = (j 0).val; have h1 : (h.drop i 0).val < 1 := (h.drop i 0).isLt; have h2 : (j 0).val < 1 := (j 0).isLt; omega)]
  rw [← Finset.map_univ_equiv (midEquiv 4096), Finset.fold_map]
  show Finset.fold max (Ideal.ofBits .f32 0xFF800000#32) _ _ = _
  rw [ofBits_neg_inf_f32]
  rfl

/-! ## The softmax scaling in stages

The stored value is cut where the mathematics cuts it: the column of logits, its maximum, the column of shifted
exponentials, their sum, the column of quotients, and the scaled rows times the weights.  Each stage is the
corresponding run of the payload's operations over the previous stage's result, so that the payload is their
composition by unfolding alone. -/

/-- The column of logits: the lane sums of `x ⊙ a` (the row `a` repeated down the rows), as a `[4096, 1]` column. -/
def logitCol (v12 : Vec Ideal S4096x128 .f32) (v13 : Vec Ideal S1x128 .f32) : FVec Ideal S4096x1 .f32 :=
  have v14 : FVec Ideal S1x128 .f32 := shapeCast S1x128 v13 shapeCasts_S1x128_S1x128
  have v15 : FVec Ideal S4096x128 .f32 := broadcastTo S4096x128 v14 broadcasts_S1x128_S4096x128
  have v16 : FVec Ideal S4096x128 .f32 := mulf v12 v15
  have v17 : FVec Ideal S4096 .f32 := multiReduction .add [1] S4096 v16 0x00000000#32 reduces_S4096x128_S4096 (.inl rfl) rfl
  have v18 : FVec Ideal S4096x1 .f32 := shapeCast S4096x1 v17 shapeCasts_S4096_S4096x1
  v18

/-- The largest entry of a column. -/
def colMax (v18 : FVec Ideal S4096x1 .f32) : Ideal .f32 :=
  have v19 : FVec Ideal S1x4096x1 .f32 := shapeCast S1x4096x1 v18 shapeCasts_S4096x1_S1x4096x1
  have v20 : FVec Ideal S1 .f32 := multiReduction .maximumf [1, 2] S1 v19 0xFF800000#32 reduces_S1x4096x1_S1 (.inl rfl) rfl
  have v21 : FVec Ideal S1x1x1 .f32 := shapeCast S1x1x1 v20 shapeCasts_S1_S1x1x1
  have v22 : Ideal .f32 := extractAt ![0, 0, 0] v21 inpos_S1x1x1_p0_0_0
  v22

/-- The column of exponentials of a column shifted by its largest entry. -/
def expCol (v18 : FVec Ideal S4096x1 .f32) : FVec Ideal S4096x1 .f32 :=
  have v23 : FVec Ideal S4096x1 .f32 := broadcast S4096x1 (colMax v18)
  have v24 : FVec Ideal S4096x1 .f32 := subf v18 v23
  have v25 : FVec Ideal S4096x1 .f32 := exp v24
  v25

/-- The sum of a column's entries. -/
def colSum (v25 : FVec Ideal S4096x1 .f32) : Ideal .f32 :=
  have v26 : FVec Ideal S1x4096x1 .f32 := shapeCast S1x4096x1 v25 shapeCasts_S4096x1_S1x4096x1
  have v27 : FVec Ideal S1 .f32 := multiReduction .add [1, 2] S1 v26 0x00000000#32 reduces_S1x4096x1_S1 (.inl rfl) rfl
  have v28 : FVec Ideal S1x1x1 .f32 := shapeCast S1x1x1 v27 shapeCasts_S1_S1x1x1
  have v29 : Ideal .f32 := extractAt ![0, 0, 0] v28 inpos_S1x1x1_p0_0_0
  v29

/-- A column divided by the sum of its entries. -/
def normCol (v25 : FVec Ideal S4096x1 .f32) : FVec Ideal S4096x1 .f32 :=
  have v30 : FVec Ideal S4096x1 .f32 := broadcast S4096x1 (colSum v25)
  have v31 : FVec Ideal S4096x1 .f32 := divf v25 v30
  v31

/-- The rows of `x` scaled by a column, times the weights. -/
def scaledTimes (v12 : Vec Ideal S4096x128 .f32) (v32 : Vec Ideal S128x128 .f32) (v31 : FVec Ideal S4096x1 .f32) :
    FVec Ideal S4096x128 .bf16 :=
  have v34 : FVec Ideal S4096x128 .f32 := broadcastTo S4096x128 v31 broadcasts_S4096x1_S4096x128
  have v35 : FVec Ideal S4096x128 .f32 := mulf v12 v34
  have v36 : FVec Ideal S4096x128 .bf16 := truncf .bf16 v35 bitsLt_bf16_f32
  have cst_16 : FVec Ideal S4096x128 .f32 := constant (F := Ideal) S4096x128 .f32 0x00000000#32
  have v37 : FVec Ideal S4096x128 .f32 := matmul dot_S4096x128_S128x128_S4096x128_1_0_0_1_n_n none v36 (k0_pay1 v32) cst_16
  have v38 : FVec Ideal S4096x128 .bf16 := truncf .bf16 v37 bitsLt_bf16_f32
  have v41 : FVec Ideal S4096x128 .bf16 := shapeCast S4096x128 v38 shapeCasts_S4096x128_S4096x128
  v41

/-- The payload is the composition of the stages. -/
theorem pay2_eq_stages (v12 : Vec Ideal S4096x128 .f32) (v13 : Vec Ideal S1x128 .f32) (v32 : Vec Ideal S128x128 .f32) :
    Gen.k0_pay2 (F := Ideal) v12 v13 v32 = scaledTimes v12 v32 (normCol (expCol (logitCol v12 v13))) := rfl

/-- The column of logits at row `p`. -/
theorem logitCol_apply (v12 : Vec Ideal S4096x128 .f32) (v13 : Vec Ideal S1x128 .f32) (p : Fin 4096) (u : Fin 1) :
    logitCol v12 v13 (ix2 p u) = logit (fun p f => v12 (ix2 p f)) (fun f => v13 (ix2 0 f)) p := by
  unfold logitCol logit
  refine (shapeCast_a_a1_apply _ _ p u).trans ?_
  refine (Ideal.multiReduction_add_single _ _ reduces_S4096x128_S4096 _ _ (ix1 p)).trans ?_
  show ∑ f : Fin 128, _ = ∑ f : Fin 128, _
  refine Finset.sum_congr rfl fun f _ => ?_
  have e : reduces_S4096x128_S4096.lift (ix1 p) f = ix2 p f := by
    funext a; apply Fin.ext
    match a with
    | ⟨0, _⟩ => rfl
    | ⟨1, _⟩ => rfl
  refine (mulf_apply _ _ _).trans ?_
  rw [e, shapeCast_self, broadcastTo_1b_ab_apply]

/-- The largest entry of a column is the fold of `max` from the bottom over its rows. -/
theorem colMax_eq (L : FVec Ideal S4096x1 .f32) :
    colMax L = (Finset.univ : Finset (Fin 4096)).fold max ⊥ (fun p => L (ix2 p (0 : Fin 1))) := by
  unfold colMax
  refine (extractAt_shapeCast_111 _ _ _).trans ?_
  refine (max_all_1n1 _ _ _ _ _).trans ?_
  refine congrArg (fun g => (Finset.univ : Finset (Fin 4096)).fold max ⊥ g) (funext fun p => ?_)
  exact shapeCast_ab_1ab_apply L _ (0 : Fin 1) p (0 : Fin 1)

/-- The sum of a column's entries is the sum over its rows. -/
theorem colSum_eq (E : FVec Ideal S4096x1 .f32) : colSum E = ∑ p : Fin 4096, E (ix2 p (0 : Fin 1)) := by
  unfold colSum
  refine (extractAt_shapeCast_111 _ _ _).trans ?_
  refine (sum_all_1n1 _ _ _ _ _).trans ?_
  refine Finset.sum_congr rfl fun p _ => ?_
  exact shapeCast_ab_1ab_apply E _ (0 : Fin 1) p (0 : Fin 1)

/-- The shifted exponentials at a row. -/
theorem expCol_apply (L : FVec Ideal S4096x1 .f32) (i : S4096x1.Idx) : expCol L i = Ideal.exp (L i - colMax L) := by
  unfold expCol
  generalize colMax L = m
  rfl

/-- The quotients at a row. -/
theorem normCol_apply (E : FVec Ideal S4096x1 .f32) (i : S4096x1.Idx) : normCol E i = Ideal.div (E i) (colSum E) := by
  unfold normCol
  generalize colSum E = d
  rfl

/-- The scaled rows times the weights, at an entry. -/
theorem scaledTimes_apply (v12 : Vec Ideal S4096x128 .f32) (v32 : Vec Ideal S128x128 .f32) (S : FVec Ideal S4096x1 .f32)
    (j : Fin 4096) (c : Fin 128) :
    scaledTimes v12 v32 S (ix2 j c) = ∑ f : Fin 128, (v12 (ix2 j f) * S (ix2 j (0 : Fin 1))) * v32 (ix2 f c) := by
  unfold scaledTimes Gen.k0_pay1
  rw [shapeCast_self]
  refine (matmul_4096_apply (φ₁ := .bf16) (φ₂ := .bf16) _ _ j c).trans ?_
  refine Finset.sum_congr rfl fun f _ => ?_
  refine congrArg (· * v32 (ix2 f c)) ?_
  refine (mulf_apply _ _ _).trans ?_
  rw [broadcastTo_a1_ab_apply]

/-- The softmax-scaled product at an entry. -/
theorem pay2_apply (v12 : Vec Ideal S4096x128 .f32) (v13 : Vec Ideal S1x128 .f32) (v32 : Vec Ideal S128x128 .f32) (j : Fin 4096) (c : Fin 128) :
    Gen.k0_pay2 (F := Ideal) v12 v13 v32 (ix2 j c)
      = swK (fun p f => v12 (ix2 p f)) (fun f c => v32 (ix2 f c)) (sm (fun p f => v12 (ix2 p f)) (fun f => v13 (ix2 0 f))) j c := by
  rw [pay2_eq_stages, scaledTimes_apply]
  have hL : (fun p : Fin 4096 => logitCol v12 v13 (ix2 p (0 : Fin 1))) = logit (fun p f => v12 (ix2 p f)) (fun f => v13 (ix2 0 f)) :=
    funext fun p => logitCol_apply v12 v13 p 0
  generalize logitCol v12 v13 = L at hL
  have hM : colMax L = top (fun p f => v12 (ix2 p f)) (fun f => v13 (ix2 0 f)) := by
    rw [colMax_eq, hL]; rfl
  have hE : (fun p : Fin 4096 => expCol L (ix2 p (0 : Fin 1))) = ew (fun p f => v12 (ix2 p f)) (fun f => v13 (ix2 0 f)) := by
    funext p
    rw [expCol_apply, hM]
    unfold ew
    rw [← hL]
  have hD : colSum (expCol L) = den (fun p f => v12 (ix2 p f)) (fun f => v13 (ix2 0 f)) := by
    rw [colSum_eq]
    unfold den
    exact congrArg (fun g => ∑ p : Fin 4096, g p) hE
  have hS : normCol (expCol L) (ix2 j (0 : Fin 1)) = sm (fun p f => v12 (ix2 p f)) (fun f => v13 (ix2 0 f)) j := by
    rw [normCol_apply, hD]
    unfold sm
    exact congrArg (fun e => Ideal.div e _) (congrFun hE j)
  rw [hS]
  rfl

end Cert.KernelIdeal.KValue

end
-- ==== Proof.KSupport.lean ====
/-
  The support array's value over the extended reals: what the support kernel's two kept buffers hold after the first
  chunk, what its output window holds after each chunk, and hence what the support array holds after the last chunk —
  the first arrangement of the support matrix of the launch's argument arrays, entry by entry.
-/
import proofs.«170018_g850403524773_cont_9to1c4b_300_6_alg».proof.Proof.KPieces
import proofs.«170018_g850403524773_cont_9to1c4b_300_6_alg».proof.Proof.KBlocks
import proofs.«170018_g850403524773_cont_9to1c4b_300_6_alg».proof.Proof.KEnds
import proofs.«170018_g850403524773_cont_9to1c4b_300_6_alg».proof.Proof.KSpecAt
import proofs.«170018_g850403524773_cont_9to1c4b_300_6_alg».proof.Proof.KHost
import proofs.«170018_g850403524773_cont_9to1c4b_300_6_alg».proof.Proof.KernelSoftmax
import proofs.«170018_g850403524773_cont_9to1c4b_300_6_alg».proof.Proof.KFinal
set_option maxRecDepth 16384

noncomputable section

open scoped BigOperators

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HyperAttn Cert.KernelIdeal.KSpec Cert.KernelIdeal.KValue Idealize.ShloMosaic.ValueIdx

variable (m : (ℓ : Loc nD τ sig) → Buf (Elt Ideal) ℓ) (ρ : Dev nD → PrngReg) (c : Dev nD)

/-! ## The input windows' blocks, as the launch's argument arrays -/

/-- The node-feature block at any chunk is the node-feature array. -/
theorem blkX (t : Fin cfg0.N) : (fun (p : Fin 4096) (f : Fin 128) => iblk0 (V1 m ρ) c 0 t (ix2 p f)) = X m c := by
  funext p f
  exact (blk0_0 (V1 m ρ) c t (ix2 p f)).trans (congrFun (V1_main_arg0 m ρ c) (ix2 p f))

/-- The weights' block at any chunk is the weight array. -/
theorem blkW (t : Fin cfg0.N) : (fun (f : Fin 128) (q : Fin 128) => iblk0 (V1 m ρ) c 2 t (ix2 f q)) = WT m c := by
  funext f q
  exact (blk0_2 (V1 m ρ) c t (ix2 f q)).trans (congrFun (V1_main_arg3 m ρ c) (ix2 f q))

/-- The attention row's block at any chunk is the attention vector: the row is the column reshaped. -/
theorem blkAV (t : Fin cfg0.N) : (fun (f : Fin 128) => iblk0 (V1 m ρ) c 1 t (ix2 (0 : Fin 1) f)) = AV m c := by
  funext f
  exact (blk0_1 (V1 m ρ) c t (ix2 (0 : Fin 1) f)).trans (KHost.attn_row (W0 m ρ c) f)

/-- The scalar's block at any chunk is the scalar: the one-by-one matrix is the scalar reshaped. -/
theorem blkAL (t : Fin cfg0.N) : iblk0 (V1 m ρ) c 3 t (ix2 (0 : Fin 1) (0 : Fin 1)) = AL m c :=
  (blk0_3 (V1 m ρ) c t (ix2 (0 : Fin 1) (0 : Fin 1))).trans (KHost.alpha_cell (W0 m ρ c))

/-! ## The two stored products, at any chunk's blocks -/

/-- The softmax-scaled product at an entry. -/
theorem pay2_val (t : Fin cfg0.N) (j : Fin 4096) (q : Fin 128) :
    Gen.k0_pay2 (F := Ideal) (iblk0 (V1 m ρ) c 0 t) (iblk0 (V1 m ρ) c 1 t) (iblk0 (V1 m ρ) c 2 t) (ix2 j q)
      = swK (X m c) (WT m c) (SM m c) j q := by
  refine (pay2_apply _ _ _ j q).trans ?_
  rw [blkX m ρ c t, blkW m ρ c t, blkAV m ρ c t]
  rfl

/-- The alpha-scaled product at an entry. -/
theorem pay3_val (t : Fin cfg0.N) (k : Fin 4096) (q : Fin 128) :
    Gen.k0_pay3 (F := Ideal) (iblk0 (V1 m ρ) c 0 t) (iblk0 (V1 m ρ) c 2 t) (iblk0 (V1 m ρ) c 3 t) (ix2 k q)
      = aiwK (X m c) (WT m c) (AL m c) k q := by
  refine (pay3_apply _ _ _ k q).trans ?_
  rw [blkX m ρ c t, blkW m ρ c t, blkAL m ρ c t]

/-! ## The kept buffers after the first chunk -/

theorem S7_val (j : Fin 4096) (q : Fin 128) : S7 (V1 m ρ) c (ix2 j q) = swK (X m c) (WT m c) (SM m c) j q :=
  (congrFun (S7_eq (V1 m ρ) c) (ix2 j q)).trans (pay2_val m ρ c t0_0 j q)

theorem S8_val (k : Fin 4096) (q : Fin 128) : S8 (V1 m ρ) c (ix2 k q) = aiwK (X m c) (WT m c) (AL m c) k q :=
  (congrFun (S8_eq (V1 m ρ) c) (ix2 k q)).trans (pay3_val m ρ c t0_0 k q)

/-! ## The output window after each chunk -/

/-- After chunk `t` the output window holds rows `1024 t` … of the support matrix: the chunk of adj against the
    softmax-scaled product, plus the chunk's rows of the alpha-scaled product. -/
theorem out5_val (t : Fin cfg0.N) (p : Fin 1024) (q : Fin 128) :
    out5 (V1 m ρ) c t (ix2 p q)
      = Gsup m c (ix2 ⟨1024 * t.val + p.val, by have := t.isLt; have : cfg0.N = 4 := Gen.N_0; omega⟩ q) := by
  rw [Gsup_apply]
  unfold supK out5
  by_cases h0 : t.val = 0
  · rw [dif_pos h0, out5A_eq, pay4_apply]
    refine congrArg₂ (· + ·) (Finset.sum_congr rfl fun j _ => ?_) ?_
    · rw [blk0_4, V1_main_arg1, pay2_val]
      rfl
    · exact (ld_off1 (F := Ideal) (Gen.k0_pay3 (F := Ideal) (iblk0 (V1 m ρ) c 0 t) (iblk0 (V1 m ρ) c 2 t) (iblk0 (V1 m ρ) c 3 t)) t p q).trans
        (pay3_val m ρ c t _ q)
  · rw [dif_neg h0, out5B_eq, pay4_apply]
    refine congrArg₂ (· + ·) (Finset.sum_congr rfl fun j _ => ?_) ?_
    · rw [blk0_4, V1_main_arg1, S7_val]
      rfl
    · exact (ld_off1 (F := Ideal) (S8 (V1 m ρ) c) t p q).trans (S8_val m ρ c _ q)

/-! ## The support array after the last chunk -/

/-- Every chunk leaves its block of the support matrix, and the four blocks cover the array. -/
theorem support_final : (dat0 (V1 m ρ) c).arrAt 5 cfg0.N = Gsup m c :=
  final0 (V1 m ρ) c (Gsup m c) (fun t => funext fun j => by
    obtain ⟨p, q, rfl⟩ : ∃ (p : Fin 1024) (q : Fin 128), j = ix2 p q := ⟨j 0, j 1, eq_ix2 j⟩
    exact (out5_val m ρ c t p q).trans (blk0_5_read (F := Ideal) c (Gsup m c) t p q).symm)

end Cert.KernelIdeal.KFrame

end
-- ==== Proof.KOutput.lean ====
/-
  The result array's value over the extended reals, and the kernel program's run with that value.

  The output kernel's chunk `t` stores, at row `p` and column `q` of its block, the product of row `p` of its chunk of
  the incidence matrix — row `1024 · t + p` of the matrix — with column `q` of the whole support array.  When the
  support array holds `supK` (the adjacency matrix times the softmax-scaled product, plus the scalar multiple of
  `x · w`), that sum over the nodes is by definition the first arrangement `outK` of the aggregate at
  `(1024 · t + p, q)`.  The four chunks' blocks cover the result array, so the array ends at the aggregate; the run then
  has the result array at the aggregate and every argument array as launched.
-/
import proofs.«170018_g850403524773_cont_9to1c4b_300_6_alg».proof.Proof.KEnds
import proofs.«170018_g850403524773_cont_9to1c4b_300_6_alg».proof.Proof.KPieces
import proofs.«170018_g850403524773_cont_9to1c4b_300_6_alg».proof.Proof.KBlocks
import proofs.«170018_g850403524773_cont_9to1c4b_300_6_alg».proof.Proof.KFinal
import proofs.«170018_g850403524773_cont_9to1c4b_300_6_alg».proof.Proof.KSpecAt
import proofs.«170018_g850403524773_cont_9to1c4b_300_6_alg».proof.Proof.KernelValue
import proofs.«170018_g850403524773_cont_9to1c4b_300_6_alg».proof.Proof.KSupport

set_option maxRecDepth 16384

noncomputable section

open scoped BigOperators

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HyperAttn Cert.KernelIdeal.KSpec Cert.KernelIdeal.KValue Idealize.ShloMosaic.ValueIdx

variable (m : (ℓ : Loc nD τ sig) → Buf (Elt Ideal) ℓ) (ρ : Dev nD → PrngReg)

/-- The output kernel's stored value at an entry, over any two operands whose entries are known: row `r` of the
    incidence matrix against column `q` of the support matrix is the aggregate's entry `(r, q)`. -/
theorem k1_pay1_out (c : Dev nD) (v0 : Vec Ideal S1024x4096 .f32) (v2 : Vec Ideal S4096x128 .f32) (r : Fin 4096) (p : Fin 1024) (q : Fin 128)
    (h0 : ∀ k : Fin 4096, v0 (ix2 p k) = INC m c r k)
    (h2 : ∀ k : Fin 4096, v2 (ix2 k q) = supK (X m c) (ADJ m c) (WT m c) (AL m c) (SM m c) k q) :
    Gen.k1_pay1 (F := Ideal) v0 v2 (ix2 p q) = Gout m c (ix2 r q) := by
  rw [k1_pay1_apply, Gout_apply]
  unfold outK
  exact Finset.sum_congr rfl fun k _ => by rw [h0 k, h2 k]

/-- What the output kernel leaves in its output window at chunk `t`, at row `p` and column `q` of the block: the
    aggregate at row `1024 · t + p`. -/
theorem out1_val (hs : ∀ c, (dat0 (V1 m ρ) c).arrAt 5 cfg0.N = Gsup m c) (c : Dev nD) (t : Fin cfg1.N) (p : Fin 1024) (q : Fin 128) :
    out1 (V2 m ρ) c t (ix2 p q)
      = Gout m c (ix2 ⟨1024 * t.val + p.val, by have := t.isLt; have : cfg1.N = 4 := Gen.N_1; omega⟩ q) := by
  rw [out1_eq]
  refine k1_pay1_out m c (iblk1 (V2 m ρ) c 1 t) (iblk1 (V2 m ρ) c 0 t) _ p q (fun k => ?_) (fun k => ?_)
  · rw [blk1_1 (V2 m ρ) c t p k, V2_main_arg2 m ρ c]
    rfl
  · rw [blk1_0 (V2 m ρ) c t (ix2 k q), V2_support m ρ c, hs c, Gsup_apply m c k q]

/-- The result array after the output kernel's four chunks: the aggregate. -/
theorem output_final (hs : ∀ c, (dat0 (V1 m ρ) c).arrAt 5 cfg0.N = Gsup m c) (c : Dev nD) :
    (dat1 (V2 m ρ) c).arrAt 2 cfg1.N = Gout m c := by
  refine final1 (V2 m ρ) c (Gout m c) fun t => ?_
  funext y
  obtain ⟨p, q, rfl⟩ : ∃ (p : Fin 1024) (q : Fin 128), y = ix2 p q := ⟨y 0, y 1, eq_ix2 y⟩
  exact (out1_val m ρ hs c t p q).trans (blk1_2_read (F := Ideal) c (Gout m c) t p q).symm

/-- The kernel program's run with its value, given the support array's: the result array ends at the aggregate, every
    argument array as launched. -/
theorem value_run_of (hs : ∀ c, (dat0 (V1 m ρ) c).arrAt 5 cfg0.N = Gsup m c) :
    θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (output_final m ρ hs c), (h c).2⟩) (run_main m ρ)

/-- The kernel program's run with its value: the result array ends at the aggregate, every argument array as launched. -/
theorem value_run :
    θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  value_run_of m ρ (fun c => support_final m ρ c)

end Cert.KernelIdeal.KFrame

end
-- ==== Proof.RefTerm.lean ====
/-
  The reference program's operations composed as one pure function of its six argument arrays:
  the same operations, shape facts and literals as the printed @main and its two module-local
  functions, one definition per tensor value, in the program's order.
-/
import proofs.«170018_g850403524773_cont_9to1c4b_300_6_alg».proof.Proof.Gen.ReferenceIdeal

noncomputable section

namespace Cert.ReferenceIdeal.RefValue

open Cert.ReferenceIdeal Cert.ReferenceIdeal.Gen Idealize.ShloMosaic

variable {F : FTy → Type} [FloatOps F]

/-- %0: the logits, input · attn. -/
def v0 (a0 : FVec F S4096x128 .f32) (a4 : FVec F S128x1 .f32) : FVec F S4096x1 .f32 :=
  Host.dotGeneral dot_S4096x128_S128x1_S4096x1_1_0_0_1_n_n none a0 a4

/-- %cst: minus infinity. -/
def cst : FVec F S_ .f32 := constant S_ .f32 0xFF800000#32

/-- %1: the maximum of the logits along the node axis. -/
def v1 (x0 : FVec F S4096x1 .f32) : FVec F S1 .f32 :=
  Host.reduce FloatOps.maximumf x0 (cst (F := F)) reducesTo_S4096x1_S1_d0 h_S_

/-- %2: minus infinity at shape [1]. -/
def v2 : FVec F S1 .f32 := broadcastInDim S1 ![] bcast_S_S1 (cst (F := F))

/-- %3. -/
def v3 (x1 : FVec F S1 .f32) : FVec F S1 .f32 := maximumf (v2 (F := F)) x1

/-- %4. -/
def v4 (x3 : FVec F S1 .f32) : FVec F S1x1 .f32 := broadcastInDim S1x1 ![1] bcast_S1_S1x1_1 x3

/-- %5. -/
def v5 (x4 : FVec F S1x1 .f32) : FVec F S4096x1 .f32 := broadcastInDim S4096x1 ![0, 1] bcast_S1x1_S4096x1_0_1 x4

/-- %6: the shifted logits. -/
def v6 (x0 x5 : FVec F S4096x1 .f32) : FVec F S4096x1 .f32 := subf x0 x5

/-- %7: their exponentials. -/
def v7 (x6 : FVec F S4096x1 .f32) : FVec F S4096x1 .f32 := Host.exp x6

/-- %cst_1: zero. -/
def cst_1 : FVec F S_ .f32 := constant S_ .f32 0x00000000#32

/-- %8: the sum of the exponentials along the node axis. -/
def v8 (x7 : FVec F S4096x1 .f32) : FVec F S1 .f32 :=
  Host.reduceAdd x7 (cst_1 (F := F)) reducesTo_S4096x1_S1_d0 h_S_

/-- %9. -/
def v9 (x8 : FVec F S1 .f32) : FVec F S1x1 .f32 := broadcastInDim S1x1 ![1] bcast_S1_S1x1_1 x8

/-- %10. -/
def v10 (x9 : FVec F S1x1 .f32) : FVec F S4096x1 .f32 := broadcastInDim S4096x1 ![0, 1] bcast_S1x1_S4096x1_0_1 x9

/-- %11: the softmax weights, as a column. -/
def v11 (x7 x10 : FVec F S4096x1 .f32) : FVec F S4096x1 .f32 := Host.divf x7 x10

/-- %12: the same as a vector. -/
def v12 (x11 : FVec F S4096x1 .f32) : FVec F S4096 .f32 := shapeCast S4096 x11 shapeCasts_S4096x1_S4096

/-- @_diag's %0: the pad with no padding. -/
def d0 (x12 : FVec F S4096 .f32) : FVec F S4096 .f32 :=
  pad S4096 ![0] ![0] ![0] x12 (constant S_ .f32 0x00000000#32 : FVec F S_ .f32) pads_S4096_S4096_000 h_S_

/-- @_diag's %1: the row coordinate. -/
def d1 : IVec S4096x4096 32 := iotaInDim S4096x4096 32 0

/-- @_diag's %2: the column coordinate. -/
def d2 : IVec S4096x4096 32 := iotaInDim S4096x4096 32 1

/-- @_diag's %3: the integer zero everywhere. -/
def d3 : IVec S4096x4096 32 := broadcastInDim S4096x4096 ![] bcast_S_S4096x4096 (constantI S_ 32 0#32)

/-- @_diag's %4. -/
def d4 : IVec S4096x4096 32 := addi d1 d3

/-- @_diag's %5: the diagonal's mask. -/
def d5 : IVec S4096x4096 1 := cmpi .eq d4 d2

/-- @_diag's %6: the weights as a column. -/
def d6 (y0 : FVec F S4096 .f32) : FVec F S4096x1 .f32 := broadcastInDim S4096x1 ![0] bcast_S4096_S4096x1_0 y0

/-- @_where's %0. -/
def w0 (y6 : FVec F S4096x1 .f32) : FVec F S4096x4096 .f32 :=
  broadcastInDim S4096x4096 ![0, 1] bcast_S4096x1_S4096x4096_0_1 y6

/-- @_where's %1: zero everywhere. -/
def w1 : FVec F S4096x4096 .f32 :=
  broadcastInDim S4096x4096 ![] bcast_S_S4096x4096 (constant S_ .f32 0x00000000#32 : FVec F S_ .f32)

/-- %13: the diagonal matrix of the weights. -/
def v13 (z0 : FVec F S4096x4096 .f32) : FVec F S4096x4096 .f32 := select d5 z0 (w1 (F := F))

/-- %14: diag · input. -/
def v14 (x13 : FVec F S4096x4096 .f32) (a0 : FVec F S4096x128 .f32) : FVec F S4096x128 .f32 :=
  Host.dotGeneral dot_S4096x4096_S4096x128_S4096x128_1_0_0_1_n_n none x13 a0

/-- %15: adj · that. -/
def v15 (a1 : FVec F S4096x4096 .f32) (x14 : FVec F S4096x128 .f32) : FVec F S4096x128 .f32 :=
  Host.dotGeneral dot_S4096x4096_S4096x128_S4096x128_1_0_0_1_n_n none a1 x14

/-- %16. -/
def v16 (a5 : FVec F S1 .f32) : FVec F S1x1 .f32 := broadcastInDim S1x1 ![1] bcast_S1_S1x1_1 a5

/-- %17: alpha everywhere. -/
def v17 (x16 : FVec F S1x1 .f32) : FVec F S4096x128 .f32 :=
  broadcastInDim S4096x128 ![0, 1] bcast_S1x1_S4096x128_0_1 x16

/-- %18: alpha · input. -/
def v18 (x17 a0 : FVec F S4096x128 .f32) : FVec F S4096x128 .f32 := mulf x17 a0

/-- %19. -/
def v19 (x15 x18 : FVec F S4096x128 .f32) : FVec F S4096x128 .f32 := addf x15 x18

/-- %20: that · weight. -/
def v20 (x19 : FVec F S4096x128 .f32) (a3 : FVec F S128x128 .f32) : FVec F S4096x128 .f32 :=
  Host.dotGeneral dot_S4096x128_S128x128_S4096x128_1_0_0_1_n_n none x19 a3

/-- %21: inc · that, the result. -/
def v21 (a2 : FVec F S4096x4096 .f32) (x20 : FVec F S4096x128 .f32) : FVec F S4096x128 .f32 :=
  Host.dotGeneral dot_S4096x4096_S4096x128_S4096x128_1_0_0_1_n_n none a2 x20

/-- The softmax weights %12 as a function of the input and the attention vector. -/
def soft (a0 : FVec F S4096x128 .f32) (a4 : FVec F S128x1 .f32) : FVec F S4096 .f32 :=
  let x0 := v0 a0 a4
  let x7 := v7 (v6 x0 (v5 (v4 (v3 (v1 x0)))))
  v12 (v11 x7 (v10 (v9 (v8 x7))))

/-- The diagonal matrix %13 of a weight vector. -/
def diagM (x12 : FVec F S4096 .f32) : FVec F S4096x4096 .f32 := v13 (w0 (d6 (d0 x12)))

/-- The printed @main as one function of its arguments. -/
def refTerm (a0 : (⟨S4096x128, .f32⟩ : BufTy).Contents (Elt F)) (a1 a2 : (⟨S4096x4096, .f32⟩ : BufTy).Contents (Elt F))
    (a3 : (⟨S128x128, .f32⟩ : BufTy).Contents (Elt F)) (a4 : (⟨S128x1, .f32⟩ : BufTy).Contents (Elt F))
    (a5 : (⟨S1, .f32⟩ : BufTy).Contents (Elt F)) : (⟨S4096x128, .f32⟩ : BufTy).Contents (Elt F) :=
  v21 a2 (v20 (v19 (v15 a1 (v14 (diagM (soft a0 a4)) a0)) (v18 (v17 (v16 a5)) a0)) a3)

end Cert.ReferenceIdeal.RefValue

end
-- ==== Proof.RefRun.lean ====
/-
  The reference program's run read back: @main, with its two module-local functions inlined at their calls,
  is a straight line of 38 host operations; every weakly fair execution terminates with the result buffer at
  those operations' composed pure function of the six arguments' launch contents, the arguments unchanged.
-/
import proofs.«170018_g850403524773_cont_9to1c4b_300_6_alg».proof.Proof.Gen.ReferenceIdeal
import proofs.«170018_g850403524773_cont_9to1c4b_300_6_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The program's 38 host operations in order: the sixteen of the softmax over the node axis, the ten of the
    diagonal embedding with the three of its selection inlined where it is called, and the nine that follow. -/
abbrev ops : List (HloOp τ sig (Elt F)) :=
  [ binary main_arg0 main_arg4 main_v0 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    nullary main_cst (constant S_ .f32 0xFF800000#32),
    binary main_v0 main_cst main_v1 ((fun x v => Host.reduce FloatOps.maximumf x v reducesTo_S4096x1_S1_d0 h_S_) : (⟨S4096x1, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v2 (broadcastInDim S1 ![] bcast_S_S1 : (⟨S_, .f32⟩ : BufTy).Contents (Elt F) → (⟨S1, .f32⟩ : BufTy).Contents (Elt F)),
    binary main_v2 main_v1 main_v3 (maximumf : (⟨S1, .f32⟩ : BufTy).Contents (Elt F) → (⟨S1, .f32⟩ : BufTy).Contents (Elt F) → (⟨S1, .f32⟩ : BufTy).Contents (Elt F)),
    unary main_v3 main_v4 (broadcastInDim S1x1 ![1] bcast_S1_S1x1_1 : (⟨S1, .f32⟩ : BufTy).Contents (Elt F) → (⟨S1x1, .f32⟩ : BufTy).Contents (Elt F)),
    unary main_v4 main_v5 (broadcastInDim S4096x1 ![0, 1] bcast_S1x1_S4096x1_0_1 : (⟨S1x1, .f32⟩ : BufTy).Contents (Elt F) → (⟨S4096x1, .f32⟩ : BufTy).Contents (Elt F)),
    binary main_v0 main_v5 main_v6 (subf : (⟨S4096x1, .f32⟩ : BufTy).Contents (Elt F) → (⟨S4096x1, .f32⟩ : BufTy).Contents (Elt F) → (⟨S4096x1, .f32⟩ : BufTy).Contents (Elt F)),
    unary main_v6 main_v7 (Host.exp : (⟨S4096x1, .f32⟩ : BufTy).Contents (Elt F) → (⟨S4096x1, .f32⟩ : BufTy).Contents (Elt F)),
    nullary main_cst_1 (constant S_ .f32 0x00000000#32),
    binary main_v7 main_cst_1 main_v8 ((fun x v => Host.reduceAdd x v reducesTo_S4096x1_S1_d0 h_S_) : (⟨S4096x1, .f32⟩ : BufTy).Contents (Elt F) → (⟨S_, .f32⟩ : BufTy).Contents (Elt F) → (⟨S1, .f32⟩ : BufTy).Contents (Elt F)),
    unary main_v8 main_v9 (broadcastInDim S1x1 ![1] bcast_S1_S1x1_1 : (⟨S1, .f32⟩ : BufTy).Contents (Elt F) → (⟨S1x1, .f32⟩ : BufTy).Contents (Elt F)),
    unary main_v9 main_v10 (broadcastInDim S4096x1 ![0, 1] bcast_S1x1_S4096x1_0_1 : (⟨S1x1, .f32⟩ : BufTy).Contents (Elt F) → (⟨S4096x1, .f32⟩ : BufTy).Contents (Elt F)),
    binary main_v7 main_v10 main_v11 (Host.divf : (⟨S4096x1, .f32⟩ : BufTy).Contents (Elt F) → (⟨S4096x1, .f32⟩ : BufTy).Contents (Elt F) → (⟨S4096x1, .f32⟩ : BufTy).Contents (Elt F)),
    reshape main_v11 main_v12 rfl shapeCasts_S4096x1_S4096,
    TRef.nullary main_call0.cst (constant S_ .f32 0x00000000#32),
    TRef.binary (.of main_v12) main_call0.cst main_call0.v0 (fun x v => pad S4096 ![0] ![0] ![0] x v pads_S4096_S4096_000 h_S_),
    TRef.nullary main_call0.v1 (iotaInDim S4096x4096 32 0),
    TRef.nullary main_call0.v2 (iotaInDim S4096x4096 32 1),
    TRef.nullary main_call0.c (constantI S_ 32 0#32),
    TRef.unary main_call0.c main_call0.v3 (broadcastInDim S4096x4096 ![] bcast_S_S4096x4096),
    TRef.binary main_call0.v1 main_call0.v3 main_call0.v4 addi,
    TRef.binary main_call0.v4 main_call0.v2 main_call0.v5 (cmpi .eq),
    TRef.unary main_call0.v0 main_call0.v6 (broadcastInDim S4096x1 ![0] bcast_S4096_S4096x1_0),
    TRef.nullary main_call0.cst_0 (constant S_ .f32 0x00000000#32),
    TRef.unary main_call0.v6 main_call0.call0.v0 (broadcastInDim S4096x4096 ![0, 1] bcast_S4096x1_S4096x4096_0_1),
    TRef.unary main_call0.cst_0 main_call0.call0.v1 (broadcastInDim S4096x4096 ![] bcast_S_S4096x4096),
    TRef.ternary main_call0.v5 main_call0.call0.v0 main_call0.call0.v1 main_call0.call0.v2 select,
    binary main_v13 main_arg0 main_v14 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    binary main_arg1 main_v14 main_v15 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg5 main_v16 (broadcastInDim S1x1 ![1] bcast_S1_S1x1_1 : (⟨S1, .f32⟩ : BufTy).Contents (Elt F) → (⟨S1x1, .f32⟩ : BufTy).Contents (Elt F)),
    unary main_v16 main_v17 (broadcastInDim S4096x128 ![0, 1] bcast_S1x1_S4096x128_0_1 : (⟨S1x1, .f32⟩ : BufTy).Contents (Elt F) → (⟨S4096x128, .f32⟩ : BufTy).Contents (Elt F)),
    binary main_v17 main_arg0 main_v18 (mulf : (⟨S4096x128, .f32⟩ : BufTy).Contents (Elt F) → (⟨S4096x128, .f32⟩ : BufTy).Contents (Elt F) → (⟨S4096x128, .f32⟩ : BufTy).Contents (Elt F)),
    binary main_v15 main_v18 main_v19 (addf : (⟨S4096x128, .f32⟩ : BufTy).Contents (Elt F) → (⟨S4096x128, .f32⟩ : BufTy).Contents (Elt F) → (⟨S4096x128, .f32⟩ : BufTy).Contents (Elt F)),
    binary main_v19 main_arg3 main_v20 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_arg2 main_v20 main_v21 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)) ]

-- thirty-eight binds re-associated: the rewrite under the chain recurses once per statement
set_option maxRecDepth 1024 in
/-- @main is that straight line: the two functions' bodies unfolded at their calls and the buffer records at their
    fields, both sides are one chain of host steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., reshape_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., binary_bufs_sub .., unary_bufs_sub .., unary_bufs_sub .., binary_bufs_sub .., binary_bufs_sub ..,
    binary_bufs_sub .., binary_bufs_sub ..⟩

set_option maxRecDepth 8192 in
set_option maxHeartbeats 400000 in
/-- The fold of the 38 operations at the result buffer is the composed function of the six arguments' contents:
    each operation's result read at its own buffer is its function of its operands' contents, at any other buffer
    what was there; the two sides are then the same operations composed (the typed references' transports are
    the identity at these literal references, the reshape is the row-major cast). -/
theorem out_eq (V : Valuation τ sig (Elt F)) :
    after ops V (main_v21 : DevRef τ sig) = RefValue.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of
    @main terminates with the result buffer at the composed function of the arguments' launch contents and the
    six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = RefValue.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v21).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

/-- The same run read at the arguments only: they are unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (run m ρ)

end Cert.ReferenceIdeal.RefRun

end
-- ==== Proof.RefRead.lean ====
/-
  The reference's term read at an index, at the extended reals: each tensor value of the program read at
  coordinates (the matrix products as sums over the contracted coordinate, the two reductions as a fold of max
  and a sum over the nodes, the broadcasts, the reshape and the pad as re-indexings, the integer comparison of
  two coordinates as their equality), then composed: the result at (r, c) is the specification's second
  arrangement `outR` at the softmax weights `sm`.
-/
import proofs.«170018_g850403524773_cont_9to1c4b_300_6_alg».proof.Proof.RefTerm
import proofs.«170018_g850403524773_cont_9to1c4b_300_6_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

noncomputable section

open scoped BigOperators

namespace Cert.ReferenceIdeal.RefValue

open Cert.ReferenceIdeal Cert.ReferenceIdeal.Gen Idealize.ShloMosaic Idealize.ShloMosaic.ValueIdx

/-! ### The product S4096x128 · S128x1 read at an index -/

theorem dotA_lhs0 (i : S4096x1.Idx) (q : Cert.ReferenceIdeal.dot_S4096x128_S128x1_S4096x1_1_0_0_1_n_n.contr.Idx) : (Cert.ReferenceIdeal.dot_S4096x128_S128x1_S4096x1_1_0_0_1_n_n.lhsIdx i q 0).val = (i 0).val := by
  unfold DotDims.lhsIdx
  rw [dif_neg (show ¬(0 : Fin S4096x128.rank) ∈ Cert.ReferenceIdeal.dot_S4096x128_S128x1_S4096x1_1_0_0_1_n_n.lhsBatch by decide), dif_pos (show (0 : Fin S4096x128.rank) ∈ Cert.ReferenceIdeal.dot_S4096x128_S128x1_S4096x1_1_0_0_1_n_n.lhsNonContracting by decide)]
  rfl
theorem dotA_lhs1 (i : S4096x1.Idx) (q : Cert.ReferenceIdeal.dot_S4096x128_S128x1_S4096x1_1_0_0_1_n_n.contr.Idx) : (Cert.ReferenceIdeal.dot_S4096x128_S128x1_S4096x1_1_0_0_1_n_n.lhsIdx i q 1).val = (q ⟨0, by decide⟩).val :=
  Cert.ReferenceIdeal.dot_S4096x128_S128x1_S4096x1_1_0_0_1_n_n.lhsIdx_val_of_single rfl i q
theorem dotA_rhs0 (i : S4096x1.Idx) (q : Cert.ReferenceIdeal.dot_S4096x128_S128x1_S4096x1_1_0_0_1_n_n.contr.Idx) : (Cert.ReferenceIdeal.dot_S4096x128_S128x1_S4096x1_1_0_0_1_n_n.rhsIdx i q 0).val = (q ⟨0, by decide⟩).val :=
  Cert.ReferenceIdeal.dot_S4096x128_S128x1_S4096x1_1_0_0_1_n_n.rhsIdx_val_of_single rfl i q
theorem dotA_rhs1 (i : S4096x1.Idx) (q : Cert.ReferenceIdeal.dot_S4096x128_S128x1_S4096x1_1_0_0_1_n_n.contr.Idx) : (Cert.ReferenceIdeal.dot_S4096x128_S128x1_S4096x1_1_0_0_1_n_n.rhsIdx i q 1).val = (i 1).val := by
  unfold DotDims.rhsIdx
  rw [dif_neg (show ¬(1 : Fin S128x1.rank) ∈ Cert.ReferenceIdeal.dot_S4096x128_S128x1_S4096x1_1_0_0_1_n_n.rhsBatch by decide), dif_pos (show (1 : Fin S128x1.rank) ∈ Cert.ReferenceIdeal.dot_S4096x128_S128x1_S4096x1_1_0_0_1_n_n.rhsNonContracting by decide)]
  rfl

/-- The matrix product at the extended reals, read at (i, c): the sum over the contracted coordinate. -/
theorem dotA_apply (l : FVec Ideal S4096x128 .f32) (r : FVec Ideal S128x1 .f32) (i : Fin 4096) (c : Fin 1) :
    Host.dotGeneral Cert.ReferenceIdeal.dot_S4096x128_S128x1_S4096x1_1_0_0_1_n_n none l r (ix2 i c) = ∑ k : Fin 128, l (ix2 i k) * r (ix2 k c) := by
  simp only [Host.dotGeneral]
  rw [Ideal.dotGeneral_apply, ← Equiv.sum_comp (contrEquiv1 Cert.ReferenceIdeal.dot_S4096x128_S128x1_S4096x1_1_0_0_1_n_n 128 rfl rfl).symm]
  refine Finset.sum_congr rfl fun k _ => ?_
  have hk := contrEquiv1_symm_val Cert.ReferenceIdeal.dot_S4096x128_S128x1_S4096x1_1_0_0_1_n_n 128 rfl rfl k
  have el : Cert.ReferenceIdeal.dot_S4096x128_S128x1_S4096x1_1_0_0_1_n_n.lhsIdx (ix2 i c) ((contrEquiv1 Cert.ReferenceIdeal.dot_S4096x128_S128x1_S4096x1_1_0_0_1_n_n 128 rfl rfl).symm k) = ix2 i k := funext fun a => Fin.ext (by
    match a with
    | ⟨0, _⟩ => exact dotA_lhs0 _ _
    | ⟨1, _⟩ => exact (dotA_lhs1 _ _).trans hk)
  have er : Cert.ReferenceIdeal.dot_S4096x128_S128x1_S4096x1_1_0_0_1_n_n.rhsIdx (ix2 i c) ((contrEquiv1 Cert.ReferenceIdeal.dot_S4096x128_S128x1_S4096x1_1_0_0_1_n_n 128 rfl rfl).symm k) = ix2 k c := funext fun a => Fin.ext (by
    match a with
    | ⟨0, _⟩ => exact (dotA_rhs0 _ _).trans hk
    | ⟨1, _⟩ => exact dotA_rhs1 _ _)
  rw [el, er]

/-! ### The product S4096x4096 · S4096x128 read at an index -/

theorem dotB_lhs0 (i : S4096x128.Idx) (q : Cert.ReferenceIdeal.dot_S4096x4096_S4096x128_S4096x128_1_0_0_1_n_n.contr.Idx) : (Cert.ReferenceIdeal.dot_S4096x4096_S4096x128_S4096x128_1_0_0_1_n_n.lhsIdx i q 0).val = (i 0).val := by
  unfold DotDims.lhsIdx
  rw [dif_neg (show ¬(0 : Fin S4096x4096.rank) ∈ Cert.ReferenceIdeal.dot_S4096x4096_S4096x128_S4096x128_1_0_0_1_n_n.lhsBatch by decide), dif_pos (show (0 : Fin S4096x4096.rank) ∈ Cert.ReferenceIdeal.dot_S4096x4096_S4096x128_S4096x128_1_0_0_1_n_n.lhsNonContracting by decide)]
  rfl
theorem dotB_lhs1 (i : S4096x128.Idx) (q : Cert.ReferenceIdeal.dot_S4096x4096_S4096x128_S4096x128_1_0_0_1_n_n.contr.Idx) : (Cert.ReferenceIdeal.dot_S4096x4096_S4096x128_S4096x128_1_0_0_1_n_n.lhsIdx i q 1).val = (q ⟨0, by decide⟩).val :=
  Cert.ReferenceIdeal.dot_S4096x4096_S4096x128_S4096x128_1_0_0_1_n_n.lhsIdx_val_of_single rfl i q
theorem dotB_rhs0 (i : S4096x128.Idx) (q : Cert.ReferenceIdeal.dot_S4096x4096_S4096x128_S4096x128_1_0_0_1_n_n.contr.Idx) : (Cert.ReferenceIdeal.dot_S4096x4096_S4096x128_S4096x128_1_0_0_1_n_n.rhsIdx i q 0).val = (q ⟨0, by decide⟩).val :=
  Cert.ReferenceIdeal.dot_S4096x4096_S4096x128_S4096x128_1_0_0_1_n_n.rhsIdx_val_of_single rfl i q
theorem dotB_rhs1 (i : S4096x128.Idx) (q : Cert.ReferenceIdeal.dot_S4096x4096_S4096x128_S4096x128_1_0_0_1_n_n.contr.Idx) : (Cert.ReferenceIdeal.dot_S4096x4096_S4096x128_S4096x128_1_0_0_1_n_n.rhsIdx i q 1).val = (i 1).val := by
  unfold DotDims.rhsIdx
  rw [dif_neg (show ¬(1 : Fin S4096x128.rank) ∈ Cert.ReferenceIdeal.dot_S4096x4096_S4096x128_S4096x128_1_0_0_1_n_n.rhsBatch by decide), dif_pos (show (1 : Fin S4096x128.rank) ∈ Cert.ReferenceIdeal.dot_S4096x4096_S4096x128_S4096x128_1_0_0_1_n_n.rhsNonContracting by decide)]
  rfl

/-- The matrix product at the extended reals, read at (i, c): the sum over the contracted coordinate. -/
theorem dotB_apply (l : FVec Ideal S4096x4096 .f32) (r : FVec Ideal S4096x128 .f32) (i : Fin 4096) (c : Fin 128) :
    Host.dotGeneral Cert.ReferenceIdeal.dot_S4096x4096_S4096x128_S4096x128_1_0_0_1_n_n none l r (ix2 i c) = ∑ k : Fin 4096, l (ix2 i k) * r (ix2 k c) := by
  simp only [Host.dotGeneral]
  rw [Ideal.dotGeneral_apply, ← Equiv.sum_comp (contrEquiv1 Cert.ReferenceIdeal.dot_S4096x4096_S4096x128_S4096x128_1_0_0_1_n_n 4096 rfl rfl).symm]
  refine Finset.sum_congr rfl fun k _ => ?_
  have hk := contrEquiv1_symm_val Cert.ReferenceIdeal.dot_S4096x4096_S4096x128_S4096x128_1_0_0_1_n_n 4096 rfl rfl k
  have el : Cert.ReferenceIdeal.dot_S4096x4096_S4096x128_S4096x128_1_0_0_1_n_n.lhsIdx (ix2 i c) ((contrEquiv1 Cert.ReferenceIdeal.dot_S4096x4096_S4096x128_S4096x128_1_0_0_1_n_n 4096 rfl rfl).symm k) = ix2 i k := funext fun a => Fin.ext (by
    match a with
    | ⟨0, _⟩ => exact dotB_lhs0 _ _
    | ⟨1, _⟩ => exact (dotB_lhs1 _ _).trans hk)
  have er : Cert.ReferenceIdeal.dot_S4096x4096_S4096x128_S4096x128_1_0_0_1_n_n.rhsIdx (ix2 i c) ((contrEquiv1 Cert.ReferenceIdeal.dot_S4096x4096_S4096x128_S4096x128_1_0_0_1_n_n 4096 rfl rfl).symm k) = ix2 k c := funext fun a => Fin.ext (by
    match a with
    | ⟨0, _⟩ => exact (dotB_rhs0 _ _).trans hk
    | ⟨1, _⟩ => exact dotB_rhs1 _ _)
  rw [el, er]

/-! ### The product S4096x128 · S128x128 read at an index -/

theorem dotC_lhs0 (i : S4096x128.Idx) (q : Cert.ReferenceIdeal.dot_S4096x128_S128x128_S4096x128_1_0_0_1_n_n.contr.Idx) : (Cert.ReferenceIdeal.dot_S4096x128_S128x128_S4096x128_1_0_0_1_n_n.lhsIdx i q 0).val = (i 0).val := by
  unfold DotDims.lhsIdx
  rw [dif_neg (show ¬(0 : Fin S4096x128.rank) ∈ Cert.ReferenceIdeal.dot_S4096x128_S128x128_S4096x128_1_0_0_1_n_n.lhsBatch by decide), dif_pos (show (0 : Fin S4096x128.rank) ∈ Cert.ReferenceIdeal.dot_S4096x128_S128x128_S4096x128_1_0_0_1_n_n.lhsNonContracting by decide)]
  rfl
theorem dotC_lhs1 (i : S4096x128.Idx) (q : Cert.ReferenceIdeal.dot_S4096x128_S128x128_S4096x128_1_0_0_1_n_n.contr.Idx) : (Cert.ReferenceIdeal.dot_S4096x128_S128x128_S4096x128_1_0_0_1_n_n.lhsIdx i q 1).val = (q ⟨0, by decide⟩).val :=
  Cert.ReferenceIdeal.dot_S4096x128_S128x128_S4096x128_1_0_0_1_n_n.lhsIdx_val_of_single rfl i q
theorem dotC_rhs0 (i : S4096x128.Idx) (q : Cert.ReferenceIdeal.dot_S4096x128_S128x128_S4096x128_1_0_0_1_n_n.contr.Idx) : (Cert.ReferenceIdeal.dot_S4096x128_S128x128_S4096x128_1_0_0_1_n_n.rhsIdx i q 0).val = (q ⟨0, by decide⟩).val :=
  Cert.ReferenceIdeal.dot_S4096x128_S128x128_S4096x128_1_0_0_1_n_n.rhsIdx_val_of_single rfl i q
theorem dotC_rhs1 (i : S4096x128.Idx) (q : Cert.ReferenceIdeal.dot_S4096x128_S128x128_S4096x128_1_0_0_1_n_n.contr.Idx) : (Cert.ReferenceIdeal.dot_S4096x128_S128x128_S4096x128_1_0_0_1_n_n.rhsIdx i q 1).val = (i 1).val := by
  unfold DotDims.rhsIdx
  rw [dif_neg (show ¬(1 : Fin S128x128.rank) ∈ Cert.ReferenceIdeal.dot_S4096x128_S128x128_S4096x128_1_0_0_1_n_n.rhsBatch by decide), dif_pos (show (1 : Fin S128x128.rank) ∈ Cert.ReferenceIdeal.dot_S4096x128_S128x128_S4096x128_1_0_0_1_n_n.rhsNonContracting by decide)]
  rfl

/-- The matrix product at the extended reals, read at (i, c): the sum over the contracted coordinate. -/
theorem dotC_apply (l : FVec Ideal S4096x128 .f32) (r : FVec Ideal S128x128 .f32) (i : Fin 4096) (c : Fin 128) :
    Host.dotGeneral Cert.ReferenceIdeal.dot_S4096x128_S128x128_S4096x128_1_0_0_1_n_n none l r (ix2 i c) = ∑ k : Fin 128, l (ix2 i k) * r (ix2 k c) := by
  simp only [Host.dotGeneral]
  rw [Ideal.dotGeneral_apply, ← Equiv.sum_comp (contrEquiv1 Cert.ReferenceIdeal.dot_S4096x128_S128x128_S4096x128_1_0_0_1_n_n 128 rfl rfl).symm]
  refine Finset.sum_congr rfl fun k _ => ?_
  have hk := contrEquiv1_symm_val Cert.ReferenceIdeal.dot_S4096x128_S128x128_S4096x128_1_0_0_1_n_n 128 rfl rfl k
  have el : Cert.ReferenceIdeal.dot_S4096x128_S128x128_S4096x128_1_0_0_1_n_n.lhsIdx (ix2 i c) ((contrEquiv1 Cert.ReferenceIdeal.dot_S4096x128_S128x128_S4096x128_1_0_0_1_n_n 128 rfl rfl).symm k) = ix2 i k := funext fun a => Fin.ext (by
    match a with
    | ⟨0, _⟩ => exact dotC_lhs0 _ _
    | ⟨1, _⟩ => exact (dotC_lhs1 _ _).trans hk)
  have er : Cert.ReferenceIdeal.dot_S4096x128_S128x128_S4096x128_1_0_0_1_n_n.rhsIdx (ix2 i c) ((contrEquiv1 Cert.ReferenceIdeal.dot_S4096x128_S128x128_S4096x128_1_0_0_1_n_n 128 rfl rfl).symm k) = ix2 k c := funext fun a => Fin.ext (by
    match a with
    | ⟨0, _⟩ => exact (dotC_rhs0 _ _).trans hk
    | ⟨1, _⟩ => exact dotC_rhs1 _ _)
  rw [el, er]

/-! ## The softmax stages read at an index -/

/-- The logits: row i of the input times the attention vector. -/
theorem v0_apply (a0 : FVec Ideal S4096x128 .f32) (a4 : FVec Ideal S128x1 .f32) (i : Fin 4096) :
    v0 a0 a4 (ix2 i (0 : Fin 1)) = ∑ k : Fin 128, a0 (ix2 i k) * a4 (ix2 k (0 : Fin 1)) :=
  dotA_apply a0 a4 i 0

/-- The pattern 0xFF800000 is minus infinity. -/
theorem cst_apply (j : S_.Idx) : cst (F := Ideal) j = ⊥ := by
  show Ideal.ofBits .f32 0xFF800000#32 = ⊥
  simp [Ideal.ofBits, Ideal.ieee]

/-- The pattern 0 is zero. -/
theorem cst_1_apply (j : S_.Idx) : cst_1 (F := Ideal) j = 0 := Ideal.ofBits_zero_f32

/-- The maximum along the node axis is the fold of max from minus infinity over the nodes. -/
theorem v1_apply (x0 : FVec Ideal S4096x1 .f32) :
    v1 x0 (ix1 (0 : Fin 1)) = (Finset.univ : Finset (Fin 4096)).fold max ⊥ (fun i => x0 (ix2 i (0 : Fin 1))) := by
  unfold v1
  rw [Host.reduce_eq_fold_single FloatOps.maximumf x0 cst reducesTo_S4096x1_S1_d0
    (by decide : S4096x1.Reduces [0] S1) h_S_ (ix1 0), cst_apply]
  refine congrArg (fun g => (Finset.univ : Finset (Fin 4096)).fold max ⊥ g)
    (funext fun k => congrArg x0 (funext fun a => Fin.ext ?_))
  match a with
  | ⟨0, _⟩ => rfl
  | ⟨1, _⟩ => rfl

theorem v3_apply (x1 : FVec Ideal S1 .f32) : v3 x1 (ix1 (0 : Fin 1)) = x1 (ix1 0) := by
  show max (v2 (F := Ideal) (ix1 0)) (x1 (ix1 0)) = _
  have h2 : v2 (F := Ideal) (ix1 (0 : Fin 1)) = ⊥ := by
    unfold v2 broadcastInDim
    exact cst_apply _
  rw [h2]
  exact max_eq_right bot_le

theorem v4_apply (x3 : FVec Ideal S1 .f32) : v4 x3 (ix2 (0 : Fin 1) (0 : Fin 1)) = x3 (ix1 0) :=
  broadcastInDim_apply _ _ _ _ (ix1 0) (fun a => match a with | ⟨0, _⟩ => rfl)

theorem v5_apply (x4 : FVec Ideal S1x1 .f32) (i : Fin 4096) : v5 x4 (ix2 i (0 : Fin 1)) = x4 (ix2 0 0) :=
  broadcastInDim_apply _ _ _ _ (ix2 0 0) (fun a => match a with | ⟨0, _⟩ => rfl | ⟨1, _⟩ => rfl)

theorem v6_apply (x0 x5 : FVec Ideal S4096x1 .f32) (j : S4096x1.Idx) : v6 x0 x5 j = x0 j - x5 j := rfl

theorem v7_apply (x6 : FVec Ideal S4096x1 .f32) (j : S4096x1.Idx) : v7 x6 j = Ideal.exp (x6 j) := rfl

/-- The sum along the node axis. -/
theorem v8_apply (x7 : FVec Ideal S4096x1 .f32) :
    v8 x7 (ix1 (0 : Fin 1)) = ∑ k : Fin 4096, x7 (ix2 k (0 : Fin 1)) := by
  unfold v8
  rw [hostReduceAdd_apply, Ideal.hostReduceAdd_single reducesTo_S4096x1_S1_d0 (by decide : S4096x1.Reduces [0] S1),
    cst_1_apply, zero_add]
  refine Finset.sum_congr rfl fun k _ => congrArg x7 (funext fun a => Fin.ext ?_)
  match a with
  | ⟨0, _⟩ => rfl
  | ⟨1, _⟩ => rfl

theorem v9_apply (x8 : FVec Ideal S1 .f32) : v9 x8 (ix2 (0 : Fin 1) (0 : Fin 1)) = x8 (ix1 0) :=
  broadcastInDim_apply _ _ _ _ (ix1 0) (fun a => match a with | ⟨0, _⟩ => rfl)

theorem v10_apply (x9 : FVec Ideal S1x1 .f32) (i : Fin 4096) : v10 x9 (ix2 i (0 : Fin 1)) = x9 (ix2 0 0) :=
  broadcastInDim_apply _ _ _ _ (ix2 0 0) (fun a => match a with | ⟨0, _⟩ => rfl | ⟨1, _⟩ => rfl)

theorem v11_apply (x7 x10 : FVec Ideal S4096x1 .f32) (j : S4096x1.Idx) : v11 x7 x10 j = Ideal.div (x7 j) (x10 j) := rfl

/-- The column as a vector: the same entries. -/
theorem v12_apply (x11 : FVec Ideal S4096x1 .f32) (i : Fin 4096) : v12 x11 (ix1 i) = x11 (ix2 i (0 : Fin 1)) :=
  shapeCast_apply x11 _ (ix1 i) (ix2 i 0) (by
    rw [Shape.rowMajor_val_two, Shape.rowMajor_val_one]
    show i.val * 1 + 0 = i.val
    omega)

/-- The softmax weights: the specification's, of the input's rows and the attention vector's entries. -/
theorem soft_apply (a0 : FVec Ideal S4096x128 .f32) (a4 : FVec Ideal S128x1 .f32) (i : Fin 4096) :
    soft a0 a4 (ix1 i)
      = Cert.HyperAttn.sm (fun p f => a0 (ix2 p f)) (fun f => a4 (ix2 f (0 : Fin 1))) i := by
  have hlogit : (fun p : Fin 4096 => v0 a0 a4 (ix2 p (0 : Fin 1)))
      = Cert.HyperAttn.logit (fun p f => a0 (ix2 p f)) (fun f => a4 (ix2 f (0 : Fin 1))) :=
    funext fun p => v0_apply a0 a4 p
  have hew : ∀ p : Fin 4096,
      v7 (v6 (v0 a0 a4) (v5 (v4 (v3 (v1 (v0 a0 a4)))))) (ix2 p (0 : Fin 1))
        = Cert.HyperAttn.ew (fun p f => a0 (ix2 p f)) (fun f => a4 (ix2 f (0 : Fin 1))) p := fun p => by
    rw [v7_apply, v6_apply, v5_apply, v4_apply, v3_apply, v1_apply, hlogit]
    exact congrArg (fun z => Ideal.exp (z - _)) (congrFun hlogit p)
  show v12 (v11 _ (v10 (v9 (v8 _)))) (ix1 i) = _
  rw [v12_apply, v11_apply, v10_apply, v9_apply, v8_apply, hew i]
  unfold Cert.HyperAttn.sm Cert.HyperAttn.den
  exact congrArg (Ideal.div _) (Finset.sum_congr rfl fun p _ => hew p)

/-! ## The diagonal matrix of a weight vector -/

/-- A pad with no padding is the operand. -/
theorem d0_apply (x12 : FVec Ideal S4096 .f32) (i : Fin 4096) : d0 x12 (ix1 i) = x12 (ix1 i) :=
  pad_apply_of_inside _ _ _ x12 _ _ _ (ix1 i) (ix1 i) (fun a => match a with
    | ⟨0, _⟩ => by
      show i.val = 0 + i.val * (0 + 1)
      omega)

/-- Two coordinates below 4096 are equal as 32-bit words exactly when they are equal. -/
theorem word_eq_iff (j j' : Fin 4096) : BitVec.ofNat 32 j.val = BitVec.ofNat 32 j'.val ↔ j = j' := by
  constructor
  · intro h
    have e := congrArg BitVec.toNat h
    simp only [BitVec.toNat_ofNat] at e
    have h1 := j.isLt
    have h2 := j'.isLt
    exact Fin.ext (by omega)
  · rintro rfl
    rfl

/-- The mask: set exactly on the diagonal. -/
theorem d5_apply (j j' : Fin 4096) : d5 (ix2 j j') = if j = j' then 1#1 else 0#1 := by
  show IntOp.cmpi .eq (IntOp.addi (BitVec.ofNat 32 j.val) 0#32) (BitVec.ofNat 32 j'.val) = _
  unfold IntOp.cmpi IntOp.addi
  rw [BitVec.add_zero]
  by_cases h : j = j'
  · subst h
    simp
  · have hne : ¬BitVec.ofNat 32 j.val = BitVec.ofNat 32 j'.val := fun e => h ((word_eq_iff j j').mp e)
    rw [if_neg h, beq_eq_false_iff_ne.mpr hne]
    rfl

theorem d6_apply (y0 : FVec Ideal S4096 .f32) (j : Fin 4096) : d6 y0 (ix2 j (0 : Fin 1)) = y0 (ix1 j) :=
  broadcastInDim_apply _ _ _ _ (ix1 j) (fun a => match a with | ⟨0, _⟩ => rfl)

theorem w0_apply (y6 : FVec Ideal S4096x1 .f32) (j j' : Fin 4096) : w0 y6 (ix2 j j') = y6 (ix2 j (0 : Fin 1)) :=
  broadcastInDim_apply _ _ _ _ (ix2 j 0) (fun a => match a with | ⟨0, _⟩ => rfl | ⟨1, _⟩ => rfl)

theorem w1_apply (i : S4096x4096.Idx) : w1 (F := Ideal) i = 0 := by
  unfold w1 broadcastInDim
  exact Ideal.ofBits_zero_f32

/-- The selected matrix is the specification's diagonal matrix of the weights. -/
theorem diagM_apply (x12 : FVec Ideal S4096 .f32) (j j' : Fin 4096) :
    diagM x12 (ix2 j j') = Cert.HyperAttn.diag (fun i => x12 (ix1 i)) j j' := by
  show Scalar.select (d5 (ix2 j j')) (w0 (d6 (d0 x12)) (ix2 j j')) (w1 (F := Ideal) (ix2 j j')) = _
  rw [d5_apply, w0_apply, d6_apply, d0_apply, w1_apply]
  unfold Cert.HyperAttn.diag
  by_cases h : j = j'
  · rw [if_pos h, if_pos h, select_one]
  · rw [if_neg h, if_neg h, select_zero]

/-! ## The aggregation stages read at an index -/

theorem v14_apply (x13 : FVec Ideal S4096x4096 .f32) (a0 : FVec Ideal S4096x128 .f32) (j : Fin 4096) (f : Fin 128) :
    v14 x13 a0 (ix2 j f) = ∑ j' : Fin 4096, x13 (ix2 j j') * a0 (ix2 j' f) := dotB_apply x13 a0 j f

theorem v15_apply (a1 : FVec Ideal S4096x4096 .f32) (x14 : FVec Ideal S4096x128 .f32) (k : Fin 4096) (f : Fin 128) :
    v15 a1 x14 (ix2 k f) = ∑ j : Fin 4096, a1 (ix2 k j) * x14 (ix2 j f) := dotB_apply a1 x14 k f

theorem v16_apply (a5 : FVec Ideal S1 .f32) : v16 a5 (ix2 (0 : Fin 1) (0 : Fin 1)) = a5 (ix1 0) :=
  broadcastInDim_apply _ _ _ _ (ix1 0) (fun a => match a with | ⟨0, _⟩ => rfl)

theorem v17_apply (x16 : FVec Ideal S1x1 .f32) (k : Fin 4096) (f : Fin 128) : v17 x16 (ix2 k f) = x16 (ix2 0 0) :=
  broadcastInDim_apply _ _ _ _ (ix2 0 0) (fun a => match a with | ⟨0, _⟩ => rfl | ⟨1, _⟩ => rfl)

theorem v18_apply (x17 a0 : FVec Ideal S4096x128 .f32) (j : S4096x128.Idx) : v18 x17 a0 j = x17 j * a0 j := rfl

theorem v19_apply (x15 x18 : FVec Ideal S4096x128 .f32) (j : S4096x128.Idx) : v19 x15 x18 j = x15 j + x18 j := rfl

theorem v20_apply (x19 : FVec Ideal S4096x128 .f32) (a3 : FVec Ideal S128x128 .f32) (k : Fin 4096) (c : Fin 128) :
    v20 x19 a3 (ix2 k c) = ∑ f : Fin 128, x19 (ix2 k f) * a3 (ix2 f c) := dotC_apply x19 a3 k c

theorem v21_apply (a2 : FVec Ideal S4096x4096 .f32) (x20 : FVec Ideal S4096x128 .f32) (r : Fin 4096) (c : Fin 128) :
    v21 a2 x20 (ix2 r c) = ∑ k : Fin 4096, a2 (ix2 r k) * x20 (ix2 k c) := dotB_apply a2 x20 r c

/-! ## The whole term -/

/-- The reference's result at (r, c) is the specification's second arrangement at the softmax weights. -/
theorem refTerm_apply (a0 : FVec Ideal S4096x128 .f32) (a1 a2 : FVec Ideal S4096x4096 .f32) (a3 : FVec Ideal S128x128 .f32)
    (a4 : FVec Ideal S128x1 .f32) (a5 : FVec Ideal S1 .f32) (r : Fin 4096) (c : Fin 128) :
    refTerm (F := Ideal) a0 a1 a2 a3 a4 a5 (ix2 r c)
      = Cert.HyperAttn.outR (fun p f => a0 (ix2 p f)) (fun k j => a1 (ix2 k j)) (fun q k => a2 (ix2 q k))
          (fun f c => a3 (ix2 f c)) (a5 (ix1 0))
          (Cert.HyperAttn.sm (fun p f => a0 (ix2 p f)) (fun f => a4 (ix2 f 0))) r c := by
  have hs : (fun i : Fin 4096 => soft a0 a4 (ix1 i))
      = Cert.HyperAttn.sm (fun p f => a0 (ix2 p f)) (fun f => a4 (ix2 f (0 : Fin 1))) :=
    funext fun i => soft_apply a0 a4 i
  unfold refTerm
  rw [v21_apply]
  unfold Cert.HyperAttn.outR
  refine Finset.sum_congr rfl fun k _ => congrArg (a2 (ix2 r k) * ·) ?_
  rw [v20_apply]
  unfold Cert.HyperAttn.supR
  refine Finset.sum_congr rfl fun f _ => congrArg (· * a3 (ix2 f c)) ?_
  rw [v19_apply, v18_apply, v17_apply, v16_apply, v15_apply]
  unfold Cert.HyperAttn.preR
  refine congrArg (· + a5 (ix1 0) * a0 (ix2 k f)) (Finset.sum_congr rfl fun j _ => congrArg (a1 (ix2 k j) * ·) ?_)
  rw [v14_apply]
  unfold Cert.HyperAttn.dx
  refine Finset.sum_congr rfl fun j' _ => ?_
  rw [diagM_apply, hs]

end Cert.ReferenceIdeal.RefValue

end
-- ==== Proof.SpecLaw.lean ====
/-
  The algebra of the hypergraph-attention aggregation on real inputs.

  * `sm_real`: the softmax weights of real inputs are real (the largest logit of a nonempty family of reals is
    one of them, the exponentials are positive reals, so the denominator is a positive real).
  * `outR_eq_outK`: on real inputs the two arrangements of the aggregate agree: the diagonal matrix collapses a
    sum to one term, and finite sums of reals commute, distribute and associate.
-/
import proofs.«170018_g850403524773_cont_9to1c4b_300_6_alg».proof.Proof.Spec

noncomputable section

open scoped BigOperators

namespace Cert.HyperAttn

open Idealize.ShloMosaic

variable {ι φ ψ : Type} [Fintype ι] [Fintype φ] [Fintype ψ] [DecidableEq ι]

/-- The coercion of a finite sum of reals is the sum of the coercions. -/
theorem coe_real_sum {α : Type} (t : Finset α) (f : α → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- On real inputs the two arrangements agree (for ANY real node weights s). -/
theorem outR_eq_outK (x : ι → φ → EReal) (adj inc : ι → ι → EReal) (w : φ → ψ → EReal) (al : EReal) (s : ι → EReal)
    (hx : ∀ i f, ∃ r : ℝ, x i f = (r : EReal)) (hadj : ∀ k j, ∃ r : ℝ, adj k j = (r : EReal)) (hinc : ∀ r k, ∃ q : ℝ, inc r k = (q : EReal))
    (hw : ∀ f c, ∃ r : ℝ, w f c = (r : EReal)) (hal : ∃ r : ℝ, al = (r : EReal)) (hs : ∀ i, ∃ r : ℝ, s i = (r : EReal)) (r : ι) (c : ψ) :
    outR x adj inc w al s r c = outK x adj inc w al s r c := by
  choose x' hx' using hx
  choose adj' hadj' using hadj
  choose inc' hinc' using hinc
  choose w' hw' using hw
  obtain ⟨al', rfl⟩ := hal
  choose s' hs' using hs
  have hdiag : ∀ j j' : ι, (if j = j' then (s' j : EReal) else 0) = ((if j = j' then s' j else 0 : ℝ) : EReal) := by
    intro j j'; split_ifs <;> simp
  simp only [outR, outK, supR, supK, preR, dx, diag, swK, aiwK, hx', hadj', hinc', hw', hs', hdiag,
    ← EReal.coe_mul, ← EReal.coe_add, ← coe_real_sum]
  congr 1
  refine Finset.sum_congr rfl fun k _ => ?_
  congr 1
  simp only [ite_mul, zero_mul, Finset.sum_ite_eq, Finset.mem_univ, if_true, add_mul, Finset.sum_add_distrib,
    Finset.sum_mul, Finset.mul_sum]
  congr 1
  · rw [Finset.sum_comm]
    exact Finset.sum_congr rfl fun j _ => Finset.sum_congr rfl fun f _ => by ring
  · exact Finset.sum_congr rfl fun f _ => by ring

/-- The fold of `max` from `⊥` over a nonempty finite family of reals is a real. -/
theorem fold_max_real {α : Type} (t : Finset α) (ht : t.Nonempty) (g : α → ℝ) :
    ∃ r : ℝ, t.fold max ⊥ (fun i => (g i : EReal)) = (r : EReal) := by
  classical
  induction ht using Finset.Nonempty.cons_induction with
  | singleton a => exact ⟨g a, by simp⟩
  | cons a s ha hs ih =>
    obtain ⟨r, hr⟩ := ih
    refine ⟨max (g a) r, ?_⟩
    rw [Finset.fold_cons, hr]
    exact (EReal.coe_strictMono.monotone.map_max).symm

/-- The softmax weights of real inputs are real. -/
theorem sm_real [Nonempty ι] (x : ι → φ → EReal) (a : φ → EReal) (hx : ∀ i f, ∃ r : ℝ, x i f = (r : EReal)) (ha : ∀ f, ∃ r : ℝ, a f = (r : EReal)) : ∀ i, ∃ r : ℝ, sm x a i = (r : EReal) := by
  choose x' hx' using hx
  choose a' ha' using ha
  have hlogit : ∀ i, logit x a i = ((∑ f, x' i f * a' f : ℝ) : EReal) := by
    intro i
    simp only [logit, hx', ha', ← EReal.coe_mul, ← coe_real_sum]
  have hfun : logit x a = fun i => ((∑ f, x' i f * a' f : ℝ) : EReal) := funext hlogit
  obtain ⟨M, hM⟩ := fold_max_real (Finset.univ : Finset ι) Finset.univ_nonempty (fun i => ∑ f, x' i f * a' f)
  have htop : top x a = (M : EReal) := by rw [top, hfun]; exact hM
  have hew : ∀ i, ew x a i = ((Real.exp ((∑ f, x' i f * a' f) - M) : ℝ) : EReal) := by
    intro i
    rw [ew, hlogit, htop, ← EReal.coe_sub]; rfl
  have hden : den x a = ((∑ i, Real.exp ((∑ f, x' i f * a' f) - M) : ℝ) : EReal) := by
    rw [den, coe_real_sum]; exact Finset.sum_congr rfl fun i _ => hew i
  have hpos : (0 : ℝ) < ∑ i, Real.exp ((∑ f, x' i f * a' f) - M) :=
    Finset.sum_pos (fun i _ => Real.exp_pos _) Finset.univ_nonempty
  intro i
  refine ⟨Real.exp ((∑ f, x' i f * a' f) - M) * (1 / ∑ i, Real.exp ((∑ f, x' i f * a' f) - M)), ?_⟩
  rw [sm, hew, hden, Ideal.div_coe (ne_of_gt hpos), ← EReal.coe_mul]

end Cert.HyperAttn

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.Finite.lean ====
/-
  The precondition, decoded: when the printed predicate "every entry of every input is finite" is 1, every entry of each
  of the six input arrays is a real number.

  The predicate is the conjunction (the bitwise `and` of one-bit words at the one scalar index) of six all-reductions,
  one per array, each of the bits of `|x i| < +inf`.  A conjunction of one-bit words is 1 exactly when both words are 1,
  and an all-reduction by `and` that is 1 makes every entry's bit 1; on the extended reals `|x| < ⊤` says `x` is a real.
-/
import proofs.«170018_g850403524773_cont_9to1c4b_300_6_alg».proof.Proof.Gen.Pre_finite_inputs
import proofs.«170018_g850403524773_cont_9to1c4b_300_6_alg».proof.Proof.LibFiniteAll

noncomputable section

namespace Cert.PreFinite

open Cert.Pre_finite_inputs Idealize.ShloMosaic Idealize.ShloMosaic.ValueIdx

/-- Under the precondition every entry of every input array is a real number. -/
theorem reals_of_pre (a0 : FVec Ideal S4096x128 .f32) (a1 a2 : FVec Ideal S4096x4096 .f32) (a3 : FVec Ideal S128x128 .f32) (a4 : FVec Ideal S128x1 .f32) (a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.LibFiniteAll.all_real a0 _ _ _ _ e0, Cert.LibFiniteAll.all_real a1 _ _ _ _ e1,
    Cert.LibFiniteAll.all_real a2 _ _ _ _ e2, Cert.LibFiniteAll.all_real a3 _ _ _ _ e3,
    Cert.LibFiniteAll.all_real a4 _ _ _ _ e4, Cert.LibFiniteAll.all_real a5 _ _ _ _ e5⟩

end Cert.PreFinite

end
-- ==== Proof.lean ====
/-
  Hypergraph-attention aggregation on 4096 nodes with 128 features: a two-kernel program against its jnp reference,
  equal as extended reals on finite inputs.

  With s = softmax over the nodes of the logits input·attn, the reference computes
      inc · ( ( adj · (diag s · input) + alpha · input ) · weight ),
  the explicit diagonal matrix built by a select on "row index = column index"; the kernel program computes
      inc · ( adj · ((input ⊙ s) · weight) + alpha · (input · weight) ),
  its first kernel streaming adj in four row chunks (the first chunk also computing the softmax and the two small products
  into buffers it keeps for the later chunks), its second streaming inc in four row chunks against the whole support.

  * Both kernel programs' frames: @main as two reshapes and two regions; each region's body runs at every chunk (the
    first kernel by cases on "first chunk", the kept buffers' contents named in the invariant between chunks), and the
    argument arrays, which no region writes back and no reshape writes, read back through the run to their launch contents
    (KRuns … KEnds at the extended reals, BRuns … BEnds at the words: one text at both instances).
  * The reference's frame and value: its @main, with the two outlined functions' operations inline, as a list of host
    operations run in order (RefRun), the composed term read index by index as the second arrangement (RefRead).
  * The kernel program's value: the pieces the runs store opened into the bodies' arithmetic (KPieces), that arithmetic
    read at an index as sums (KernelValue, KernelSoftmax), the windows' blocks read off their arrays (KBlocks, KHost), the
    four row chunks assembled into whole arrays (KFinal): the support array, then the result array, is the first
    arrangement (KSupport, KOutput).
  * The two arrangements agree on real inputs, products of matrices being associative and distributing over sums of
    reals, and the softmax weights of real logits being real (SpecLaw); the precondition says every input is real (Finite).
  The ideal pass rewrote nothing, so the idealized kernel program is the printed one read at the extended reals.
-/
import proofs.«170018_g850403524773_cont_9to1c4b_300_6_alg».proof.Defs
import proofs.«170018_g850403524773_cont_9to1c4b_300_6_alg».proof.Proof.Gen.Kernel
import proofs.«170018_g850403524773_cont_9to1c4b_300_6_alg».proof.Proof.Gen.KernelIdeal
import proofs.«170018_g850403524773_cont_9to1c4b_300_6_alg».proof.Proof.Gen.ReferenceIdeal
import proofs.«170018_g850403524773_cont_9to1c4b_300_6_alg».proof.Proof.Gen.Pre_finite_inputs
import proofs.«170018_g850403524773_cont_9to1c4b_300_6_alg».proof.Proof.BEnds
import proofs.«170018_g850403524773_cont_9to1c4b_300_6_alg».proof.Proof.KOutput
import proofs.«170018_g850403524773_cont_9to1c4b_300_6_alg».proof.Proof.RefRun
import proofs.«170018_g850403524773_cont_9to1c4b_300_6_alg».proof.Proof.RefRead
import proofs.«170018_g850403524773_cont_9to1c4b_300_6_alg».proof.Proof.SpecLaw
import proofs.«170018_g850403524773_cont_9to1c4b_300_6_alg».proof.Proof.Finite

noncomputable section

namespace Cert.Proof

open Idealize.ShloMosaic Idealize.ShloMosaic.TcCoe Idealize.ShloMosaic.ValueIdx Idealize.SL.Sem

/-- The word-level kernel program runs to the end, faults nowhere and leaves its arguments unchanged. -/
theorem frame_k : Cert.frame_Kernel := fun m ρ _ => Cert.Kernel.KFrame.frame m ρ
/-- So does the idealized kernel program. -/
theorem frame_ki : Cert.frame_KernelIdeal := fun m ρ _ => Cert.KernelIdeal.KFrame.frame m ρ
/-- The reference is host operations only: its run, the result dropped. -/
theorem frame_ri : Cert.frame_ReferenceIdeal := fun m ρ _ => Cert.ReferenceIdeal.RefRun.frame m ρ
/-- The ideal pass rewrote nothing. -/
theorem preserves : Cert.preserves_Kernel_KernelIdeal := trivial

/-- On finite inputs the reference's composed term is the kernel's array: the reference computes the second
    arrangement of the aggregate (read index by index), the kernel the first, and on real inputs — the softmax weights of
    real logits being real — the two arrangements agree. -/
theorem ref_eq (m : (ℓ : Loc Cert.KernelIdeal.nD Cert.KernelIdeal.τ Cert.KernelIdeal.sig) → Buf (Elt Ideal) ℓ) (c : Dev Cert.KernelIdeal.nD)
    (h : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)) :
    Cert.ReferenceIdeal.RefValue.refTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.KSpec.Gout m c := by
  obtain ⟨h0, h1, h2, h3, h4, h5⟩ := Cert.PreFinite.reals_of_pre _ _ _ _ _ _ h
  funext i
  obtain ⟨r, q, rfl⟩ : ∃ (r : Fin 4096) (q : Fin 128), i = ix2 r q := ⟨i 0, i 1, eq_ix2 i⟩
  refine (Cert.ReferenceIdeal.RefValue.refTerm_apply _ _ _ _ _ _ r q).trans ?_
  have hx : ∀ (p : Fin 4096) (f : Fin 128), ∃ x : ℝ, Cert.KernelIdeal.KSpec.X m c p f = (x : EReal) := fun p f => h0 (ix2 p f)
  have ha : ∀ f : Fin 128, ∃ x : ℝ, Cert.KernelIdeal.KSpec.AV m c f = (x : EReal) := fun f => h4 (ix2 f 0)
  exact Cert.HyperAttn.outR_eq_outK (Cert.KernelIdeal.KSpec.X m c) (Cert.KernelIdeal.KSpec.ADJ m c) (Cert.KernelIdeal.KSpec.INC m c) (Cert.KernelIdeal.KSpec.WT m c) (Cert.KernelIdeal.KSpec.AL m c) (Cert.KernelIdeal.KSpec.SM m c)
    hx (fun k j => h1 (ix2 k j)) (fun r k => h2 (ix2 r k)) (fun f q => h3 (ix2 f q)) (h5 (ix1 0)) (Cert.HyperAttn.sm_real _ _ hx ha) r q

/-- At the extended reals, from memories agreeing on the arguments, both programs run and end with equal results: the
    kernel's result array is the first arrangement of the aggregate (its run, read block by block), the reference's
    the second (its run), and the two agree on finite inputs. -/
theorem algebraic : Cert.algebraic_KernelIdeal_ReferenceIdeal := by
  intro m ρ m' ρ' hpre hagree
  refine ⟨fun c => Cert.KernelIdeal.KSpec.Gout m c, Cert.KernelIdeal.KFrame.value_run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5⟩ := hagree c
  rw [e0, e1, e2, e3, e4, e5]
  exact ref_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
